-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S64 .f32) (main_arg5 : FVec F S64x128 .f32) (main_arg6 : FVec F S128 .f32) (main_arg7 : FVec F S128x128 .f32) (main_arg8 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : FVec F S64x128 .f32) (main_arg6 : FVec F S128 .f32) (main_arg7 : FVec F S128x128 .f32) (main_arg8 : FVec F S128 .f32) (main_arg9 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 120
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S2x1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S1600000x64, .f32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x128, .f32⟩
  | .hbm, ⟨112, _⟩ => ⟨S1600000x128, .f32⟩
  | .hbm, ⟨113, _⟩ => ⟨S1600000x128, .f32⟩
  | .hbm, ⟨114, _⟩ => ⟨S_, .f32⟩
  | .hbm, ⟨115, _⟩ => ⟨S100000x128, .f32⟩
  | .hbm, ⟨116, _⟩ => ⟨S1600000x1, .i32⟩
  | .hbm, ⟨117, _⟩ => ⟨S100000x128, .f32⟩
  | .hbm, ⟨118, _⟩ => ⟨S1x128, .f32⟩
  | .hbm, ⟨119, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v87) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v29) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v88) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v89) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S2x1600000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x64, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S100000, .f32⟩
  | 111 => ⟨S100000, .f32⟩
  | 112 => ⟨S100000x1, .f32⟩
  | 113 => ⟨S100000x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x1, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x1, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_v90 : Ref sig .tc := ⟨.hbm, 122, rfl⟩
abbrev main_c_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_21 : Ref sig .tc := ⟨.hbm, 139, rfl⟩
abbrev main_v104 : Ref sig .tc := ⟨.hbm, 140, rfl⟩
abbrev main_v105 : Ref sig .tc := ⟨.hbm, 141, rfl⟩
abbrev main_c_22 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_23 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_24 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call1_cst : Ref sig .tc := ⟨.hbm, 165, rfl⟩
abbrev main_call1_v0 : Ref sig .tc := ⟨.hbm, 166, rfl⟩
abbrev main_v126 : Ref sig .tc := ⟨.hbm, 167, rfl⟩
abbrev main_v127 : Ref sig .tc := ⟨.hbm, 168, rfl⟩
abbrev main_c_25 : Ref sig .tc := ⟨.hbm, 169, rfl⟩
abbrev main_v128 : Ref sig .tc := ⟨.hbm, 170, rfl⟩
abbrev main_v129 : Ref sig .tc := ⟨.hbm, 171, rfl⟩
abbrev main_c_26 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_27 : Ref sig .tc := ⟨.hbm, 178, rfl⟩
abbrev main_v135 : Ref sig .tc := ⟨.hbm, 179, rfl⟩
abbrev main_v136 : Ref sig .tc := ⟨.hbm, 180, rfl⟩
abbrev main_c_28 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_29 : Ref sig .tc := ⟨.hbm, 188, rfl⟩
abbrev main_v143 : Ref sig .tc := ⟨.hbm, 189, rfl⟩
abbrev main_v144 : Ref sig .tc := ⟨.hbm, 190, rfl⟩
abbrev main_c_30 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_31 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_32 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.LibMatrixProduct.lean ====
/-
  The product of two matrices of extended reals, as an array.

  For an `[M, K]` array `x` and a `[K, N]` array `w` of extended reals the product `x · w` is the `[M, N]` array whose
  entry `(p, q)` is `∑ₖ x(p, k) · w(k, q)`. On the extended reals, where no operation rounds and a sum has no order, two
  operations compute exactly this array: jnp's `dot_general` of the two operands (contraction on the left's second axis and
  the right's first, no batch axis), and a `tpu.matmul` with the same dimension numbers accumulated into the zero splat.
  The dimension record is kept abstract; what is asked of it is that it contracts one axis of extent `K` and reads its
  operands at `(p, k)` and `(k, q)`, facts a concrete record gives by unfolding.

  A row of the product reads only the same row of the left factor (`prod_row`): this is why a product computed block of
  rows by block of rows is the whole product.  Any extents.
-/
import Idealize.ShloMosaic.PureOps.Ideal.Laws
import Idealize.ShloMosaic.Lib.ValueIdx
import proofs.«104169_j19911468384614_1_alg».proof.Proof.LibMatmulRowsByCols
import proofs.«104169_j19911468384614_1_alg».proof.Proof.LibDotRowsByCols

namespace Idealize.ShloMosaic.MatrixProduct

open Idealize.ShloMosaic Idealize.ShloMosaic.ValueIdx

variable {M K N : ℕ} {φ₁ φ₂ : FTy}

/-- The product array: entry `i = (p, q)` is `∑ₖ x(p, k) · w(k, q)`. -/
noncomputable def prod (x : FVec Ideal ⟨2, ![M, K]⟩ φ₁) (w : FVec Ideal ⟨2, ![K, N]⟩ φ₂) : FVec Ideal ⟨2, ![M, N]⟩ .f32 :=
  fun i => ∑ k : Fin K, x (ix2 (i 0) k) * w (ix2 k (i 1))

/-- The product read at coordinates. -/
theorem prod_apply (x : FVec Ideal ⟨2, ![M, K]⟩ φ₁) (w : FVec Ideal ⟨2, ![K, N]⟩ φ₂) (p : Fin M) (q : Fin N) :
    prod x w (ix2 p q) = ∑ k : Fin K, x (ix2 p k) * w (ix2 k q) := rfl

/-- Row `p'` of `x' · w` is row `p` of `x · w` as soon as row `p'` of `x'` is row `p` of `x`: a row of the product reads
    one row of the left factor and all of the right one. -/
theorem prod_row {M' : ℕ} (x : FVec Ideal ⟨2, ![M, K]⟩ φ₁) (x' : FVec Ideal ⟨2, ![M', K]⟩ φ₁)
    (w : FVec Ideal ⟨2, ![K, N]⟩ φ₂) (p : Fin M) (p' : Fin M') (q : Fin N)
    (h : ∀ k : Fin K, x' (ix2 p' k) = x (ix2 p k)) : prod x' w (ix2 p' q) = prod x w (ix2 p q) := by
  rw [prod_apply, prod_apply]
  exact Finset.sum_congr rfl fun k _ => by rw [h k]

/-- jnp's `dot_general` of an `[M, K]` and a `[K, N]` operand is their product. -/
theorem dotGeneral_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r := by
  funext i
  obtain ⟨p, q, rfl⟩ : ∃ (p : Fin M) (q : Fin N), i = ix2 p q := ⟨i 0, i 1, eq_ix2 i⟩
  exact DotRowsByCols.dotGeneral_apply D hr hs hl0 hl1 hr0 hr1 prec l r p q

/-- A `tpu.matmul` of an `[M, K]` and a `[K, N]` operand into the zero accumulator is their product. -/
theorem matmul_zero_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  exact MatmulRowsByCols.matmul_zero_apply D hr hs hl0 hl1 hr0 hr1 prec l r p q

end Idealize.ShloMosaic.MatrixProduct
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.Spec.lean ====
/-
  The function both programs compute, written once.

  A graph of 100000 nodes carries 1600000 directed edges, given as a 2 × 1600000 array of node numbers: row 0 the
  sources, row 1 the targets. A node's degree is one (its own loop) plus the number of edges that end at it. One layer
  of graph convolution takes node features z, a weight matrix w and a bias b, forms the projected features h = z · w,
  and returns at node v, feature q,

      ( Σ over edges e that end at v of  h(source e, q) · s(source e) · s(target e)   +   h(v, q) · (1 / degree v) )  +  b(q)

  where s = degree^(-1/2). The edge sum is spelt with the host operations that realise it: negative node numbers are
  wrapped around by adding 100000, the rows of h at the sources are gathered, scaled by the per-edge factor, and
  scatter-added into a zero array at the targets. Four layers are stacked, of widths 128 → 128 → 64 → 128 → 128, the first
  and third followed by max(·, 0).

  Everything here is over the extended reals, where no operation rounds.
-/
import proofs.«104169_j19911468384614_1_alg».proof.KernelIdeal
import proofs.«104169_j19911468384614_1_alg».proof.Proof.Gen.KernelIdeal
import Idealize.ShloMosaic.PureOps.Ideal.Laws
import Idealize.ShloMosaic.Lib.ValueIdx
import proofs.«104169_j19911468384614_1_alg».proof.Proof.LibMatrixProduct
import proofs.«104169_j19911468384614_1_alg».proof.Proof.LibOneRowMatrix

noncomputable section

namespace Cert.GraphConv

open Idealize.ShloMosaic Idealize.ShloMosaic.ValueIdx Cert.KernelIdeal Cert.KernelIdeal.Gen

/-- An array of extended reals of a given shape. -/
abbrev Arr (S : Shape) := FVec Ideal S .f32
/-- An array of 32-bit node numbers of a given shape. -/
abbrev Ix (S : Shape) := (⟨S, .i32⟩ : BufTy).Contents (Elt Ideal)

/-- The sources of the edges: row 0 of the edge array. -/
def src (e : Ix S2x1600000) : Ix S1600000 :=
  shapeCast _ (extractStridedSlice S1x1600000 ![0, 0] e slices_S2x1600000_S1x1600000_0_0) shapeCasts_S1x1600000_S1600000

/-- The targets of the edges: row 1 of the edge array. -/
def dst (e : Ix S2x1600000) : Ix S1600000 :=
  shapeCast _ (extractStridedSlice S1x1600000 ![1, 0] e slices_S2x1600000_S1x1600000_1_0) shapeCasts_S1x1600000_S1600000

/-- Node numbers as a column of gather indices, a negative number wrapped around by adding the node count. -/
def wrap (v : Ix S1600000) : Ix S1600000x1 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A node's degree: the number of edges that end at it, plus one. -/
def deg (e : Ix S2x1600000) : Arr S100000 :=
  addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dst e))
      (broadcastInDim S1600000 ![] bcast_S_S1600000 (constant (F := Ideal) S_ .f32 0x3F800000#32)))
    (broadcastInDim S100000 ![] bcast_S_S100000 (constant (F := Ideal) S_ .f32 0x3F800000#32))

/-- The per-edge factor s(source) · s(target), s = degree^(-1/2), as a column. -/
def edgeScale (e : Ix S2x1600000) : Arr S1600000x1 :=
  broadcastInDim S1600000x1 ![0] bcast_S1600000_S1600000x1_0
    (mulf (Host.gather gather_S100000_S1600000x1_S1600000_n_0_n_n_0_1_1 (Host.rsqrt (F := Ideal) (deg e)) (wrap (src e)))
      (Host.gather gather_S100000_S1600000x1_S1600000_n_0_n_n_0_1_1 (Host.rsqrt (F := Ideal) (deg e)) (wrap (dst e))))

/-- The per-node factor 1 / degree, as a column. -/
def selfScale (e : Ix S2x1600000) : Arr S100000x1 :=
  broadcastInDim S100000x1 ![0] bcast_S100000_S100000x1_0
    (Host.divf (F := Ideal) (broadcastInDim S100000 ![] bcast_S_S100000 (constant (F := Ideal) S_ .f32 0x3F800000#32)) (deg e))

/-- The edge sum of 128-wide features: rows gathered at the sources, scaled per edge, scatter-added at the targets. -/
def edgeSum128 (h : Arr S100000x128) (e : Ix S2x1600000) : Arr S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst e))
    (mulf (Host.gather gather_S100000x128_S1600000x1_S1600000x128_1_0_n_n_0_1_1128 h (wrap (src e)))
      (broadcastInDim S1600000x128 ![0, 1] bcast_S1600000x1_S1600000x128_0_1 (edgeScale e)))

/-- The edge sum of 64-wide features. -/
def edgeSum64 (h : Arr S100000x64) (e : Ix S2x1600000) : Arr S100000x64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dst e))
    (mulf (Host.gather gather_S100000x64_S1600000x1_S1600000x64_1_0_n_n_0_1_164 h (wrap (src e)))
      (broadcastInDim S1600000x64 ![0, 1] bcast_S1600000x1_S1600000x64_0_1 (edgeScale e)))

/-- The combining step at an entry: (edge sum + h · per-node factor) + bias. -/
def combine {n d : ℕ} (a h : FVec Ideal ⟨2, ![n, d]⟩ .f32) (s : FVec Ideal ⟨2, ![n, 1]⟩ .f32) (b : FVec Ideal ⟨1, ![d]⟩ .f32) :
    FVec Ideal ⟨2, ![n, d]⟩ .f32 :=
  fun i => (a i + h i * s (ix2 (i 0) (0 : Fin 1))) + b (ix1 (i 1))

/-- max(·, 0), entry by entry; the zero is the f32 word 0. -/
def rectify {S : Shape} (x : FVec Ideal S .f32) : FVec Ideal S .f32 :=
  fun i => max (x i) (Ideal.ofBits .f32 0x00000000#32)

/-- The same step with the bias given as a one-row matrix. -/
def combineRow {n d : ℕ} (a h : FVec Ideal ⟨2, ![n, d]⟩ .f32) (s : FVec Ideal ⟨2, ![n, 1]⟩ .f32) (b : FVec Ideal ⟨2, ![1, d]⟩ .f32) :
    FVec Ideal ⟨2, ![n, d]⟩ .f32 :=
  fun i => (a i + h i * s (ix2 (i 0) (0 : Fin 1))) + b (ix2 (0 : Fin 1) (i 1))

/-- A bias vector viewed as a one-row matrix gives the same step. -/
theorem combineRow_cast {n d : ℕ} (a h : FVec Ideal ⟨2, ![n, d]⟩ .f32) (s : FVec Ideal ⟨2, ![n, 1]⟩ .f32) (b : FVec Ideal ⟨1, ![d]⟩ .f32)
    (hc : (⟨1, ![d]⟩ : Shape).ShapeCasts ⟨2, ![1, d]⟩) :
    combineRow a h s (shapeCast (⟨2, ![1, d]⟩ : Shape) b hc) = combine a h s b := by
  funext i
  obtain ⟨p, q, rfl⟩ : ∃ (p : Fin n) (q : Fin d), i = ix2 p q := ⟨i 0, i 1, eq_ix2 i⟩
  show (a (ix2 p q) + h (ix2 p q) * s (ix2 p (0 : Fin 1))) + shapeCast (⟨2, ![1, d]⟩ : Shape) b hc (ix2 (0 : Fin 1) q) = _
  rw [OneRowMatrix.row_of_vector]
  rfl

theorem combine_apply {n d : ℕ} (a h : FVec Ideal ⟨2, ![n, d]⟩ .f32) (s : FVec Ideal ⟨2, ![n, 1]⟩ .f32) (b : FVec Ideal ⟨1, ![d]⟩ .f32)
    (p : Fin n) (q : Fin d) : combine a h s b (ix2 p q) = (a (ix2 p q) + h (ix2 p q) * s (ix2 p (0 : Fin 1))) + b (ix1 q) := rfl

/-- Layer 1: 128 → 128, rectified. -/
def layer1 (z : Arr S100000x128) (w : Arr S128x128) (b : Arr S128) (e : Ix S2x1600000) : Arr S100000x128 :=
  rectify (combine (edgeSum128 (MatrixProduct.prod (φ₁ := .f32) (φ₂ := .f32) z w) e) (MatrixProduct.prod (φ₁ := .f32) (φ₂ := .f32) z w) (selfScale e) b)

/-- Layer 2: 128 → 64. -/
def layer2 (z : Arr S100000x128) (w : Arr S128x64) (b : Arr S64) (e : Ix S2x1600000) : Arr S100000x64 :=
  combine (edgeSum64 (MatrixProduct.prod (φ₁ := .f32) (φ₂ := .f32) z w) e) (MatrixProduct.prod (φ₁ := .f32) (φ₂ := .f32) z w) (selfScale e) b

/-- Layer 3: 64 → 128, rectified. -/
def layer3 (z : Arr S100000x64) (w : Arr S64x128) (b : Arr S128) (e : Ix S2x1600000) : Arr S100000x128 :=
  rectify (combine (edgeSum128 (MatrixProduct.prod (φ₁ := .f32) (φ₂ := .f32) z w) e) (MatrixProduct.prod (φ₁ := .f32) (φ₂ := .f32) z w) (selfScale e) b)

/-- Layer 4: 128 → 128. -/
def layer4 (z : Arr S100000x128) (w : Arr S128x128) (b : Arr S128) (e : Ix S2x1600000) : Arr S100000x128 :=
  combine (edgeSum128 (MatrixProduct.prod (φ₁ := .f32) (φ₂ := .f32) z w) e) (MatrixProduct.prod (φ₁ := .f32) (φ₂ := .f32) z w) (selfScale e) b

/-- The four layers stacked. -/
def network (x : Arr S100000x128) (w1 : Arr S128x128) (b1 : Arr S128) (w2 : Arr S128x64) (b2 : Arr S64)
    (w3 : Arr S64x128) (b3 : Arr S128) (w4 : Arr S128x128) (b4 : Arr S128) (e : Ix S2x1600000) : Arr S100000x128 :=
  layer4 (layer3 (layer2 (layer1 x w1 b1 e) w2 b2 e) w3 b3 e) w4 b4 e

end Cert.GraphConv

end
-- ==== Proof.KernelRun.lean ====
/-
  The kernel program's run, with its result named.

  The program is thirteen segments: stretches of host operations and eight kernel regions. The frame of the program is
  proved by running the segments one after another from the launch memory, each segment entered from the buffer contents
  the previous one leaves; the last contents are a fold of the launch memory through all thirteen (`Gen.W13`). This module
  runs the same chain of segments and keeps, of the final state, one more fact than the frame does: the result buffer
  holds what the fold holds there.
-/
import proofs.«104169_j19911468384614_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v89) = W13 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v89 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Whole

end
-- ==== Proof.RegionProduct0.lean ====
/-
  Region 0 of the kernel program: a matrix product computed block of rows by block of rows.

  The region's grid has 20 points. Point t stages rows 5000·t … 5000·t + 4999 of the left factor (a 100000 × 128 array) and
  the whole right factor (128 × 128), multiplies the two into a zero accumulator, and writes the 5000 × 128 result back as
  rows 5000·t … of the output array. Over the extended reals a row of a product depends on the same row of the left factor
  only, so each block written is the corresponding block of the whole product, and the 20 blocks tile the output: the
  output array ends holding the product of the two arrays as the region found them.
-/
import proofs.«104169_j19911468384614_1_alg».proof.Proof.Gen.KernelIdeal.Frame
import proofs.«104169_j19911468384614_1_alg».proof.Proof.LibMatrixProduct
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The record of the body's matrix product contracts one axis of extent 128, reading the left operand at (p, k) and the
    right one at (k, q). -/
theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores is the product of the two staged blocks: the narrowing of the operands to bf16 changes nothing
    over the extended reals, and the accumulator starts at zero. -/
theorem payload_eq (x : Vec Ideal S5000x128 .f32) (w : Vec Ideal S128x128 .f32) :
    k0_pay1 x w = MatrixProduct.prod (φ₁ := .f32) (φ₂ := .f32) x w := by
  unfold k0_pay1
  exact MatrixProduct.matmul_zero_eq dot_S5000x128_S128x128_S5000x128_1_0_0_1_n_n rfl rfl lhs0 lhs1 rhs0 rhs1 none _ _

/-- An entry of the product of a block of rows with the whole right factor is the entry of the whole product in the row
    the block's row came from. -/
theorem prod_block (A : FVec Ideal S100000x128 .f32) (W : FVec Ideal S128x128 .f32) (xb : FVec Ideal S5000x128 .f32) (wb : FVec Ideal S128x128 .f32)
    (j : S5000x128.Idx) (i : S100000x128.Idx) (hrow : ∀ k : Fin 128, xb (ix2 (j 0) k) = A (ix2 (i 0) k)) (hw : wb = W)
    (hcol : (i 1).val = (j 1).val) :
    MatrixProduct.prod (φ₁ := .f32) (φ₂ := .f32) xb wb j = MatrixProduct.prod (φ₁ := .f32) (φ₂ := .f32) A W i := by
  subst hw
  have hi : i = ix2 (i 0) (j 1) := (eq_ix2 i).trans (congrArg (ix2 (i 0)) (Fin.ext hcol))
  rw [eq_ix2 j, hi]
  exact MatrixProduct.prod_row A xb wb (i 0) (j 0) (j 1) hrow

/-- The printed index maps over the 20 grid points: the left factor's block moves with the output's down the rows, the
    right factor's block stays put, and the output's row-block number is the point's. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block of rows of the output is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the product of the two arrays as the region found them. -/
theorem flushed_eq (c : Dev nD) (t : Fin cfg0.N) :
    (dat0 V c).flushed 2 t
      = ((cfg0.win 2).blk t).view.read (Elt Ideal) (MatrixProduct.prod (φ₁ := .f32) (φ₂ := .f32) (V c main_arg0) (V c main_arg1)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [payload_eq]
  obtain ⟨e0, e1, e2, e3, e4, e5⟩ := idx_facts t
  funext j
  show MatrixProduct.prod (φ₁ := .f32) (φ₂ := .f32) (iblk0 V c 0 t) (iblk0 V c 1 t) j
    = MatrixProduct.prod (φ₁ := .f32) (φ₂ := .f32) (V c main_arg0) (V c main_arg1) (((cfg0.win 2).blk t).view.emb j)
  refine prod_block (V c main_arg0) (V c main_arg1) (iblk0 V c 0 t) (iblk0 V c 1 t) j (((cfg0.win 2).blk t).view.emb j) (fun k => ?_) ?_ ?_
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext y
    show V c main_arg1 (((cfg0.win 1).blk t).view.emb y) = V c main_arg1 y
    refine congrArg (V c main_arg1) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (1 : Fin 2) * 128 + 1 * (j 1).val = (j 1).val
    omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array lies in the block of the point numbered by its row divided by 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two input arrays as the region found them. -/
theorem result (c : Dev nD) :
    (dat0 V c).arrAt 2 cfg0.N = MatrixProduct.prod (φ₁ := .f32) (φ₂ := .f32) (V c main_arg0) (V c main_arg1) :=
  (dat0 V c).arrAt_eq_of_cover 2 _ (fun t _ => flushed_eq V c t) cover

end Cert.KernelIdeal.Blocks0

end
-- ==== Proof.RegionProduct2.lean ====
/-
  Region 2 of the kernel program: a matrix product computed block of rows by block of rows.

  The region's grid has 20 points. Point t stages rows 5000·t … 5000·t + 4999 of the left factor (a 100000 × 128 array) and
  the whole right factor (128 × 64), multiplies the two into a zero accumulator, and writes the 5000 × 64 result back as
  rows 5000·t … of the output array. Over the extended reals a row of a product depends on the same row of the left factor
  only, so each block written is the corresponding block of the whole product, and the 20 blocks tile the output: the
  output array ends holding the product of the two arrays as the region found them.
-/
import proofs.«104169_j19911468384614_1_alg».proof.Proof.Gen.KernelIdeal.Frame
import proofs.«104169_j19911468384614_1_alg».proof.Proof.LibMatrixProduct
import Idealize.ShloMosaic.Lib.Pipeline.Value
import Idealize.ShloMosaic.Lib.ValueIdx

set_option maxRecDepth 16384

noncomputable section

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The record of the body's matrix product contracts one axis of extent 128, reading the left operand at (p, k) and the
    right one at (k, q). -/
theorem lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores is the product of the two staged blocks: the narrowing of the operands to bf16 changes nothing
    over the extended reals, and the accumulator starts at zero. -/
theorem payload_eq (x : Vec Ideal S5000x128 .f32) (w : Vec Ideal S128x64 .f32) :
    k2_pay1 x w = MatrixProduct.prod (φ₁ := .f32) (φ₂ := .f32) x w := by
  unfold k2_pay1
  simp only [shapeCast_self]
  exact MatrixProduct.matmul_zero_eq dot_S5000x128_S128x64_S5000x64_1_0_0_1_n_n rfl rfl lhs0 lhs1 rhs0 rhs1 none _ _

/-- An entry of the product of a block of rows with the whole right factor is the entry of the whole product in the row
    the block's row came from. -/
theorem prod_block (A : FVec Ideal S100000x128 .f32) (W : FVec Ideal S128x64 .f32) (xb : FVec Ideal S5000x128 .f32) (wb : FVec Ideal S128x64 .f32)
    (j : S5000x64.Idx) (i : S100000x64.Idx) (hrow : ∀ k : Fin 128, xb (ix2 (j 0) k) = A (ix2 (i 0) k)) (hw : wb = W)
    (hcol : (i 1).val = (j 1).val) :
    MatrixProduct.prod (φ₁ := .f32) (φ₂ := .f32) xb wb j = MatrixProduct.prod (φ₁ := .f32) (φ₂ := .f32) A W i := by
  subst hw
  have hi : i = ix2 (i 0) (j 1) := (eq_ix2 i).trans (congrArg (ix2 (i 0)) (Fin.ext hcol))
  rw [eq_ix2 j, hi]
  exact MatrixProduct.prod_row A xb wb (i 0) (j 0) (j 1) hrow

/-- The printed index maps over the 20 grid points: the left factor's block moves with the output's down the rows, the
    right factor's block stays put, and the output's row-block number is the point's. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block of rows of the output is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point t writes back is block t of the product of the two arrays as the region found them. -/
theorem flushed_eq (c : Dev nD) (t : Fin cfg2.N) :
    (dat2 V c).flushed 2 t
      = ((cfg2.win 2).blk t).view.read (Elt Ideal) (MatrixProduct.prod (φ₁ := .f32) (φ₂ := .f32) (V c main_v44) (V c main_arg3)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  rw [payload_eq]
  obtain ⟨e0, e1, e2, e3, e4, e5⟩ := idx_facts t
  funext j
  show MatrixProduct.prod (φ₁ := .f32) (φ₂ := .f32) (iblk2 V c 0 t) (iblk2 V c 1 t) j
    = MatrixProduct.prod (φ₁ := .f32) (φ₂ := .f32) (V c main_v44) (V c main_arg3) (((cfg2.win 2).blk t).view.emb j)
  refine prod_block (V c main_v44) (V c main_arg3) (iblk2 V c 0 t) (iblk2 V c 1 t) j (((cfg2.win 2).blk t).view.emb j) (fun k => ?_) ?_ ?_
  · show V c main_v44 (((cfg2.win 0).blk t).view.emb (ix2 (j 0) k)) = V c main_v44 (ix2 ((((cfg2.win 2).blk t).view.emb j) 0) k)
    refine congrArg (V c main_v44) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · funext y
    show V c main_arg3 (((cfg2.win 1).blk t).view.emb y) = V c main_arg3 y
    refine congrArg (V c main_arg3) (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show win2_2.index t (1 : Fin 2) * 64 + 1 * (j 1).val = (j 1).val
    omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every index of the output array lies in the block of the point numbered by its row divided by 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: the product of the two input arrays as the region found them. -/
theorem result (c : Dev nD) :
    (dat2 V c).arrAt 2 cfg2.N = MatrixProduct.prod (φ₁ := .f32) (φ₂ := .f32) (V c main_v44) (V c main_arg3) :=
  (dat2 V c).arrAt_eq_of_cover 2 _ (fun t _ => flushed_eq V c t) cover

end Cert.KernelIdeal.Blocks2

end
-- ==== Proof.RegionProduct4.lean ====
/-
  Region 4 of the kernel program: a matrix product computed block of rows by block of rows.

  The region's grid has 20 points. Point t stages rows 5000·t … 5000·t + 4999 of the left factor (a 100000 × 64 array) and
  the whole right factor (64 × 128), multiplies the two into a zero accumulator, and writes the 5000 × 128 result back as
  rows 5000·t … of the output array. Over the extended reals a row of a product depends on the same row of the left factor
  only, so each block written is the corresponding block of the whole product, and the 20 blocks tile the output: the
  output array ends holding the product of the two arrays as the region found them.
-/
import proofs.«104169_j19911468384614_1_alg».proof.Proof.Gen.KernelIdeal.Frame
import proofs.«104169_j19911468384614_1_alg».proof.Proof.LibMatrixProduct
import Idealize.ShloMosaic.Lib.Pipeline.Value
import Idealize.ShloMosaic.Lib.ValueIdx

set_option maxRecDepth 16384

noncomputable section

namespace Cert.KernelIdeal.Blocks4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The record of the body's matrix product contracts one axis of extent 64, reading the left operand at (p, k) and the
    right one at (k, q). -/
theorem lhs0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem rhs0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem rhs1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- What the body stores is the product of the two staged blocks: the narrowing of the operands to bf16 changes nothing
    over the extended reals, and the accumulator starts at zero. -/
theorem payload_eq (x : Vec Ideal S5000x64 .f32) (w : Vec Ideal S64x128 .f32) :
    k4_pay1 x w = MatrixProduct.prod (φ₁ := .f32) (φ₂ := .f32) x w := by
  unfold k4_pay1
  simp only [shapeCast_self]
  exact MatrixProduct.matmul_zero_eq dot_S5000x64_S64x128_S5000x128_1_0_0_1_n_n rfl rfl lhs0 lhs1 rhs0 rhs1 none _ _

/-- An entry of the product of a block of rows with the whole right factor is the entry of the whole product in the row
    the block's row came from. -/
theorem prod_block (A : FVec Ideal S100000x64 .f32) (W : FVec Ideal S64x128 .f32) (xb : FVec Ideal S5000x64 .f32) (wb : FVec Ideal S64x128 .f32)
    (j : S5000x128.Idx) (i : S100000x128.Idx) (hrow : ∀ k : Fin 64, xb (ix2 (j 0) k) = A (ix2 (i 0) k)) (hw : wb = W)
    (hcol : (i 1).val = (j 1).val) :
    MatrixProduct.prod (φ₁ := .f32) (φ₂ := .f32) xb wb j = MatrixProduct.prod (φ₁ := .f32) (φ₂ := .f32) A W i := by
  subst hw
  have hi : i = ix2 (i 0) (j 1) := (eq_ix2 i).trans (congrArg (ix2 (i 0)) (Fin.ext hcol))
  rw [eq_ix2 j, hi]
  exact MatrixProduct.prod_row A xb wb (i 0) (j 0) (j 1) hrow

/-- The printed index maps over the 20 grid points: the left factor's block moves with the output's down the rows, the
    right factor's block stays put, and the output's row-block number is the point's. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 19 :=
  (by decide +kernel : ∀ t : Fin grid4.N, _)

/-- Every block of rows of the output is some point's. -/
theorem idx_onto : ∀ q0 : Fin 20, ∃ t : Fin cfg4.N, win4_2.index t = ![q0.val, 0] :=
  (by decide +kernel : ∀ q0 : Fin 20, ∃ t : Fin grid4.N, win4_2.index t = ![q0.val, 0])

/-- What point t writes back is block t of the product of the two arrays as the region found them. -/
theorem flushed_eq (c : Dev nD) (t : Fin cfg4.N) :
    (dat4 V c).flushed 2 t
      = ((cfg4.win 2).blk t).view.read (Elt Ideal) (MatrixProduct.prod (φ₁ := .f32) (φ₂ := .f32) (V c main_v59) (V c main_arg5)) := by
  show (cfg4.win 2).cut (grid4.coords t) ((dat4 V c).after 2 t) = _
  rw [after4_2]
  unfold out4_2
  rw [View.canon_unit_zero origin]
  simp only [View.ld_unit_zero (S := S5000x64) origin, View.ld_unit_zero (S := S64x128) origin]
  rw [payload_eq]
  obtain ⟨e0, e1, e2, e3, e4, e5⟩ := idx_facts t
  funext j
  show MatrixProduct.prod (φ₁ := .f32) (φ₂ := .f32) (iblk4 V c 0 t) (iblk4 V c 1 t) j
    = MatrixProduct.prod (φ₁ := .f32) (φ₂ := .f32) (V c main_v59) (V c main_arg5) (((cfg4.win 2).blk t).view.emb j)
  refine prod_block (V c main_v59) (V c main_arg5) (iblk4 V c 0 t) (iblk4 V c 1 t) j (((cfg4.win 2).blk t).view.emb j) (fun k => ?_) ?_ ?_
  · show V c main_v59 (((cfg4.win 0).blk t).view.emb (ix2 (j 0) k)) = V c main_v59 (ix2 ((((cfg4.win 2).blk t).view.emb j) 0) k)
    refine congrArg (V c main_v59) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  · funext y
    show V c main_arg5 (((cfg4.win 1).blk t).view.emb y) = V c main_arg5 y
    refine congrArg (V c main_arg5) (funext fun a => Fin.ext ?_)
    match a with
    | ⟨0, _⟩ => show win4_1.index t (0 : Fin 2) * 64 + 1 * (y 0).val = (y 0).val; omega
    | ⟨1, _⟩ => show win4_1.index t (1 : Fin 2) * 128 + 1 * (y 1).val = (y 1).val; omega
  · show win4_2.index t (1 : Fin 2) * 128 + 1 * (j 1).val = (j 1).val
    omega

/-- An index of the output array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Every index of the output array lies in the block of the point numbered by its row divided by 5000. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: the product of the two input arrays as the region found them. -/
theorem result (c : Dev nD) :
    (dat4 V c).arrAt 2 cfg4.N = MatrixProduct.prod (φ₁ := .f32) (φ₂ := .f32) (V c main_v59) (V c main_arg5) :=
  (dat4 V c).arrAt_eq_of_cover 2 _ (fun t _ => flushed_eq V c t) cover

end Cert.KernelIdeal.Blocks4

end
-- ==== Proof.RegionProduct6.lean ====
/-
  Region 6 of the kernel program: a matrix product computed block of rows by block of rows.

  The region's grid has 20 points. Point t stages rows 5000·t … 5000·t + 4999 of the left factor (a 100000 × 128 array) and
  the whole right factor (128 × 128), multiplies the two into a zero accumulator, and writes the 5000 × 128 result back as
  rows 5000·t … of the output array. Over the extended reals a row of a product depends on the same row of the left factor
  only, so each block written is the corresponding block of the whole product, and the 20 blocks tile the output: the
  output array ends holding the product of the two arrays as the region found them.
-/
import proofs.«104169_j19911468384614_1_alg».proof.Proof.Gen.KernelIdeal.Frame
import proofs.«104169_j19911468384614_1_alg».proof.Proof.LibMatrixProduct
import Idealize.ShloMosaic.Lib.Pipeline.Value
import Idealize.ShloMosaic.Lib.ValueIdx

set_option maxRecDepth 16384

noncomputable section

namespace Cert.KernelIdeal.Blocks6

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The record of the body's matrix product contracts one axis of extent 128, reading the left operand at (p, k) and the
    right one at (k, q). -/
theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores is the product of the two staged blocks: the narrowing of the operands to bf16 changes nothing
    over the extended reals, and the accumulator starts at zero. -/
theorem payload_eq (x : Vec Ideal S5000x128 .f32) (w : Vec Ideal S128x128 .f32) :
    k6_pay1 x w = MatrixProduct.prod (φ₁ := .f32) (φ₂ := .f32) x w := by
  unfold k6_pay1
  simp only [shapeCast_self]
  exact MatrixProduct.matmul_zero_eq dot_S5000x128_S128x128_S5000x128_1_0_0_1_n_n rfl rfl lhs0 lhs1 rhs0 rhs1 none _ _

/-- An entry of the product of a block of rows with the whole right factor is the entry of the whole product in the row
    the block's row came from. -/
theorem prod_block (A : FVec Ideal S100000x128 .f32) (W : FVec Ideal S128x128 .f32) (xb : FVec Ideal S5000x128 .f32) (wb : FVec Ideal S128x128 .f32)
    (j : S5000x128.Idx) (i : S100000x128.Idx) (hrow : ∀ k : Fin 128, xb (ix2 (j 0) k) = A (ix2 (i 0) k)) (hw : wb = W)
    (hcol : (i 1).val = (j 1).val) :
    MatrixProduct.prod (φ₁ := .f32) (φ₂ := .f32) xb wb j = MatrixProduct.prod (φ₁ := .f32) (φ₂ := .f32) A W i := by
  subst hw
  have hi : i = ix2 (i 0) (j 1) := (eq_ix2 i).trans (congrArg (ix2 (i 0)) (Fin.ext hcol))
  rw [eq_ix2 j, hi]
  exact MatrixProduct.prod_row A xb wb (i 0) (j 0) (j 1) hrow

/-- The printed index maps over the 20 grid points: the left factor's block moves with the output's down the rows, the
    right factor's block stays put, and the output's row-block number is the point's. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 19 :=
  (by decide +kernel : ∀ t : Fin grid6.N, _)

/-- Every block of rows of the output is some point's. -/
theorem idx_onto : ∀ q0 : Fin 20, ∃ t : Fin cfg6.N, win6_2.index t = ![q0.val, 0] :=
  (by decide +kernel : ∀ q0 : Fin 20, ∃ t : Fin grid6.N, win6_2.index t = ![q0.val, 0])

/-- What point t writes back is block t of the product of the two arrays as the region found them. -/
theorem flushed_eq (c : Dev nD) (t : Fin cfg6.N) :
    (dat6 V c).flushed 2 t
      = ((cfg6.win 2).blk t).view.read (Elt Ideal) (MatrixProduct.prod (φ₁ := .f32) (φ₂ := .f32) (V c main_v74) (V c main_arg7)) := by
  show (cfg6.win 2).cut (grid6.coords t) ((dat6 V c).after 2 t) = _
  rw [after6_2]
  unfold out6_2
  rw [View.canon_unit_zero origin]
  simp only [View.ld_unit_zero (S := S5000x128) origin, View.ld_unit_zero (S := S128x128) origin]
  rw [payload_eq]
  obtain ⟨e0, e1, e2, e3, e4, e5⟩ := idx_facts t
  funext j
  show MatrixProduct.prod (φ₁ := .f32) (φ₂ := .f32) (iblk6 V c 0 t) (iblk6 V c 1 t) j
    = MatrixProduct.prod (φ₁ := .f32) (φ₂ := .f32) (V c main_v74) (V c main_arg7) (((cfg6.win 2).blk t).view.emb j)
  refine prod_block (V c main_v74) (V c main_arg7) (iblk6 V c 0 t) (iblk6 V c 1 t) j (((cfg6.win 2).blk t).view.emb j) (fun k => ?_) ?_ ?_
  · show V c main_v74 (((cfg6.win 0).blk t).view.emb (ix2 (j 0) k)) = V c main_v74 (ix2 ((((cfg6.win 2).blk t).view.emb j) 0) k)
    refine congrArg (V c main_v74) (funext fun a => Fin.ext ?_)
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · funext y
    show V c main_arg7 (((cfg6.win 1).blk t).view.emb y) = V c main_arg7 y
    refine congrArg (V c main_arg7) (funext fun a => Fin.ext ?_)
    match a with
    | ⟨0, _⟩ => show win6_1.index t (0 : Fin 2) * 128 + 1 * (y 0).val = (y 0).val; omega
    | ⟨1, _⟩ => show win6_1.index t (1 : Fin 2) * 128 + 1 * (y 1).val = (y 1).val; omega
  · show win6_2.index t (1 : Fin 2) * 128 + 1 * (j 1).val = (j 1).val
    omega

/-- An index of the output array is in point t's block iff each coordinate is in the block's range on its axis. -/
theorem mem_blk (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v75).slice (win6_2.rect t)).set ↔ _
  rw [View.set_slice_whole, Rect.mem_set_unit]
  exact Iff.rfl

/-- Every index of the output array lies in the block of the point numbered by its row divided by 5000. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := idx_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the product of the two input arrays as the region found them. -/
theorem result (c : Dev nD) :
    (dat6 V c).arrAt 2 cfg6.N = MatrixProduct.prod (φ₁ := .f32) (φ₂ := .f32) (V c main_v74) (V c main_arg7) :=
  (dat6 V c).arrAt_eq_of_cover 2 _ (fun t _ => flushed_eq V c t) cover

end Cert.KernelIdeal.Blocks6

end
-- ==== Proof.LibColumnBroadcast.lean ====
/-
  Columns, read at an entry.

  An [a, 1] array broadcast to [a, b] reads, at (p, c), the column's entry at (p, 0): every entry of row p of the
  result is the one number the column holds for that row (the companion of the library's one-row form [1, b] → [a, b]).
  A vector [a] cast to a column [a, 1] reads, at (i, 0), the vector's entry at i (the companion of the library's row
  form [a] → [1, a]). Any extents and element type; imports only the library.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnBroadcast
-- ==== Proof.RegionCombine1.lean ====
/-
  Region 1 of the kernel program: the combining step of a layer, computed block of rows by block of rows.

  The region's grid has 20 points. Point t stages rows 5000·t … 5000·t + 4999 of the edge sum and of the projected features
  (both 100000 × 128), the same rows of the per-node factor (a 100000 × 1 column) and the whole bias (a 1 × 128 row), forms
  (edge sum + features · factor) + bias entry by entry, takes the maximum with zero, and writes the 5000 × 128 result back as
  rows 5000·t … of the output array. Every entry of the result depends on the entries of the same row and column only, so
  each block written is the corresponding block of the whole-array step, and the 20 blocks tile the output.
-/
import proofs.«104169_j19911468384614_1_alg».proof.Proof.Gen.KernelIdeal.Frame
import proofs.«104169_j19911468384614_1_alg».proof.Proof.Spec
import proofs.«104169_j19911468384614_1_alg».proof.Proof.LibColumnBroadcast
import proofs.«104169_j19911468384614_1_alg».proof.Proof.LibOneRowMatrix
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at an entry: the column of factors is read at the entry's row, the row of biases at its column. -/
theorem payload_apply (xa xh : Vec Ideal S5000x128 .f32) (xs : Vec Ideal S5000x1 .f32) (xb : Vec Ideal S1x128 .f32) (p : Fin 5000) (q : Fin 128) :
    k1_pay1 xa xh xs xb (ix2 p q)
      = max ((xa (ix2 p q) + xh (ix2 p q) * xs (ix2 p (0 : Fin 1))) + xb (ix2 (0 : Fin 1) q)) (Ideal.ofBits .f32 0x00000000#32) := by
  unfold k1_pay1
  simp only [shapeCast_self]
  show max ((xa (ix2 p q) + xh (ix2 p q) * broadcastTo S5000x128 xs broadcasts_S5000x1_S5000x128 (ix2 p q)) + broadcastTo S5000x128 xb broadcasts_S1x128_S5000x128 (ix2 p q)) (Ideal.ofBits .f32 0x00000000#32) = _
  rw [ColumnBroadcast.broadcastTo_a1_ab_apply, OneRowMatrix.broadcast_row_apply]

/-- An entry of the step on staged blocks is the entry of the whole-array step at the array index the block entry came
    from. -/
theorem entry_block (A H : FVec Ideal S100000x128 .f32) (Sc : FVec Ideal S100000x1 .f32) (B : FVec Ideal S1x128 .f32)
    (xa xh : FVec Ideal S5000x128 .f32) (xs : FVec Ideal S5000x1 .f32) (xb : FVec Ideal S1x128 .f32) (j : S5000x128.Idx) (i : S100000x128.Idx)
    (ha : xa j = A i) (hh : xh j = H i) (hs : xs (ix2 (j 0) (0 : Fin 1)) = Sc (ix2 (i 0) (0 : Fin 1))) (hb : xb = B)
    (hcol : (i 1).val = (j 1).val) :
    k1_pay1 xa xh xs xb j = GraphConv.rectify (GraphConv.combineRow A H Sc B) i := by
  subst hb
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hcol
  subst hq
  rw [payload_apply]
  show _ = max ((A (ix2 p' q') + H (ix2 p' q') * Sc (ix2 p' (0 : Fin 1))) + xb (ix2 (0 : Fin 1) q')) (Ideal.ofBits .f32 0x00000000#32)
  rw [ha, hh]
  exact congrArg (fun z => max ((A (ix2 p' q') + H (ix2 p' q') * z) + xb (ix2 (0 : Fin 1) q')) (Ideal.ofBits .f32 0x00000000#32)) hs

/-- The printed index maps over the 20 grid points: the three row-blocked inputs move with the output down the rows, the
    bias block stays put, and the output's row-block number is the point's. -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = win1_4.index t (0 : Fin 2)
    ∧ win1_2.index t (1 : Fin 2) = 0 ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every block of rows of the output is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

set_option maxHeartbeats 1000000 in
/-- What point t writes back is block t of the whole-array step on the four arrays as the region found them. -/
theorem flushed_eq (c : Dev nD) (t : Fin cfg1.N) :
    (dat1 V c).flushed 4 t
      = ((cfg1.win 4).blk t).view.read (Elt Ideal) (GraphConv.rectify (GraphConv.combineRow (V c main_v42) (V c main_v30) (V c main_v29) (V c main_v43))) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := idx_facts t
  funext j
  show k1_pay1 (iblk1 V c 0 t) (iblk1 V c 1 t) (iblk1 V c 2 t) (iblk1 V c 3 t) j
    = (GraphConv.rectify (GraphConv.combineRow (V c main_v42) (V c main_v30) (V c main_v29) (V c main_v43))) (((cfg1.win 4).blk t).view.emb j)
  refine entry_block (V c main_v42) (V c main_v30) (V c main_v29) (V c main_v43) (iblk1 V c 0 t) (iblk1 V c 1 t) (iblk1 V c 2 t) (iblk1 V c 3 t)
    j (((cfg1.win 4).blk t).view.emb j) ?_ ?_ ?_ ?_ ?_
  · show V c main_v42 (((cfg1.win 0).blk t).view.emb j) = V c main_v42 (((cfg1.win 4).blk t).view.emb j)
    refine congrArg (V c main_v42) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v30 (((cfg1.win 1).blk t).view.emb j) = V c main_v30 (((cfg1.win 4).blk t).view.emb j)
    refine congrArg (V c main_v30) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · show V c main_v29 (((cfg1.win 2).blk t).view.emb (ix2 (j 0) (0 : Fin 1))) = V c main_v29 (ix2 ((((cfg1.win 4).blk t).view.emb j) 0) (0 : Fin 1))
    refine congrArg (V c main_v29) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · funext y
    show V c main_v43 (((cfg1.win 3).blk t).view.emb y) = V c main_v43 y
    refine congrArg (V c main_v43) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show win1_4.index t (1 : Fin 2) * 128 + 1 * (j 1).val = (j 1).val
    omega

/-- An index of the output array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every index of the output array lies in the block of the point numbered by its row divided by 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the whole-array step on the four input arrays as the region found them. -/
theorem result (c : Dev nD) :
    (dat1 V c).arrAt 4 cfg1.N = GraphConv.rectify (GraphConv.combineRow (V c main_v42) (V c main_v30) (V c main_v29) (V c main_v43)) :=
  (dat1 V c).arrAt_eq_of_cover 4 _ (fun t _ => flushed_eq V c t) cover

end Cert.KernelIdeal.Blocks1

end
-- ==== Proof.RegionCombine3.lean ====
/-
  Region 3 of the kernel program: the combining step of a layer, computed block of rows by block of rows.

  The region's grid has 20 points. Point t stages rows 5000·t … 5000·t + 4999 of the edge sum and of the projected features
  (both 100000 × 64), the same rows of the per-node factor (a 100000 × 1 column) and the whole bias (a 1 × 64 row), forms
  (edge sum + features · factor) + bias entry by entry and writes the 5000 × 64 result back as
  rows 5000·t … of the output array. Every entry of the result depends on the entries of the same row and column only, so
  each block written is the corresponding block of the whole-array step, and the 20 blocks tile the output.
-/
import proofs.«104169_j19911468384614_1_alg».proof.Proof.Gen.KernelIdeal.Frame
import proofs.«104169_j19911468384614_1_alg».proof.Proof.Spec
import proofs.«104169_j19911468384614_1_alg».proof.Proof.LibColumnBroadcast
import proofs.«104169_j19911468384614_1_alg».proof.Proof.LibOneRowMatrix
import Idealize.ShloMosaic.Lib.Pipeline.Value
import Idealize.ShloMosaic.Lib.ValueIdx

set_option maxRecDepth 16384

noncomputable section

namespace Cert.KernelIdeal.Blocks3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at an entry: the column of factors is read at the entry's row, the row of biases at its column. -/
theorem payload_apply (xa xh : Vec Ideal S5000x64 .f32) (xs : Vec Ideal S5000x1 .f32) (xb : Vec Ideal S1x64 .f32) (p : Fin 5000) (q : Fin 64) :
    k3_pay1 xa xh xs xb (ix2 p q)
      = (xa (ix2 p q) + xh (ix2 p q) * xs (ix2 p (0 : Fin 1))) + xb (ix2 (0 : Fin 1) q) := by
  unfold k3_pay1
  simp only [shapeCast_self]
  show (xa (ix2 p q) + xh (ix2 p q) * broadcastTo S5000x64 xs broadcasts_S5000x1_S5000x64 (ix2 p q)) + broadcastTo S5000x64 xb broadcasts_S1x64_S5000x64 (ix2 p q) = _
  rw [ColumnBroadcast.broadcastTo_a1_ab_apply, OneRowMatrix.broadcast_row_apply]

/-- An entry of the step on staged blocks is the entry of the whole-array step at the array index the block entry came
    from. -/
theorem entry_block (A H : FVec Ideal S100000x64 .f32) (Sc : FVec Ideal S100000x1 .f32) (B : FVec Ideal S1x64 .f32)
    (xa xh : FVec Ideal S5000x64 .f32) (xs : FVec Ideal S5000x1 .f32) (xb : FVec Ideal S1x64 .f32) (j : S5000x64.Idx) (i : S100000x64.Idx)
    (ha : xa j = A i) (hh : xh j = H i) (hs : xs (ix2 (j 0) (0 : Fin 1)) = Sc (ix2 (i 0) (0 : Fin 1))) (hb : xb = B)
    (hcol : (i 1).val = (j 1).val) :
    k3_pay1 xa xh xs xb j = GraphConv.combineRow A H Sc B i := by
  subst hb
  obtain ⟨p, q, rfl⟩ : ∃ (p : Fin 5000) (q : Fin 64), j = ix2 p q := ⟨j 0, j 1, eq_ix2 j⟩
  obtain ⟨p', q', rfl⟩ : ∃ (p' : Fin 100000) (q' : Fin 64), i = ix2 p' q' := ⟨i 0, i 1, eq_ix2 i⟩
  have hq : q' = q := Fin.ext hcol
  subst hq
  rw [payload_apply]
  show _ = (A (ix2 p' q') + H (ix2 p' q') * Sc (ix2 p' (0 : Fin 1))) + xb (ix2 (0 : Fin 1) q')
  rw [ha, hh]
  exact congrArg (fun z => (A (ix2 p' q') + H (ix2 p' q') * z) + xb (ix2 (0 : Fin 1) q')) hs

/-- The printed index maps over the 20 grid points: the three row-blocked inputs move with the output down the rows, the
    bias block stays put, and the output's row-block number is the point's. -/
theorem idx_facts : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = win3_4.index t (0 : Fin 2)
    ∧ win3_2.index t (1 : Fin 2) = 0 ∧ win3_3.index t (0 : Fin 2) = 0 ∧ win3_3.index t (1 : Fin 2) = 0
    ∧ win3_4.index t (1 : Fin 2) = 0 ∧ win3_4.index t (0 : Fin 2) ≤ 19 :=
  (by decide +kernel : ∀ t : Fin grid3.N, _)

/-- Every block of rows of the output is some point's. -/
theorem idx_onto : ∀ q0 : Fin 20, ∃ t : Fin cfg3.N, win3_4.index t = ![q0.val, 0] :=
  (by decide +kernel : ∀ q0 : Fin 20, ∃ t : Fin grid3.N, win3_4.index t = ![q0.val, 0])

set_option maxHeartbeats 1000000 in
/-- What point t writes back is block t of the whole-array step on the four arrays as the region found them. -/
theorem flushed_eq (c : Dev nD) (t : Fin cfg3.N) :
    (dat3 V c).flushed 4 t
      = ((cfg3.win 4).blk t).view.read (Elt Ideal) (GraphConv.combineRow (V c main_v57) (V c main_v45) (V c main_v29) (V c main_v58)) := by
  show (cfg3.win 4).cut (grid3.coords t) ((dat3 V c).after 4 t) = _
  rw [after3_4]
  unfold out3_4
  rw [View.canon_unit_zero origin]
  simp only [View.ld_unit_zero (S := S5000x64) origin, View.ld_unit_zero (S := S5000x1) origin, View.ld_unit_zero (S := S1x64) origin]
  obtain ⟨e0, e1, e2, e3, e4, e5, e6, e7, e8, e9⟩ := idx_facts t
  funext j
  show k3_pay1 (iblk3 V c 0 t) (iblk3 V c 1 t) (iblk3 V c 2 t) (iblk3 V c 3 t) j
    = (GraphConv.combineRow (V c main_v57) (V c main_v45) (V c main_v29) (V c main_v58)) (((cfg3.win 4).blk t).view.emb j)
  refine entry_block (V c main_v57) (V c main_v45) (V c main_v29) (V c main_v58) (iblk3 V c 0 t) (iblk3 V c 1 t) (iblk3 V c 2 t) (iblk3 V c 3 t)
    j (((cfg3.win 4).blk t).view.emb j) ?_ ?_ ?_ ?_ ?_
  · show V c main_v57 (((cfg3.win 0).blk t).view.emb j) = V c main_v57 (((cfg3.win 4).blk t).view.emb j)
    refine congrArg (V c main_v57) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  · show V c main_v45 (((cfg3.win 1).blk t).view.emb j) = V c main_v45 (((cfg3.win 4).blk t).view.emb j)
    refine congrArg (V c main_v45) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  · show V c main_v29 (((cfg3.win 2).blk t).view.emb (ix2 (j 0) (0 : Fin 1))) = V c main_v29 (ix2 ((((cfg3.win 4).blk t).view.emb j) 0) (0 : Fin 1))
    refine congrArg (V c main_v29) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · funext y
    show V c main_v58 (((cfg3.win 3).blk t).view.emb y) = V c main_v58 y
    refine congrArg (V c main_v58) (funext fun a => Fin.ext ?_)
    match a with
    | ⟨0, _⟩ => show win3_3.index t (0 : Fin 2) * 1 + 1 * (y 0).val = (y 0).val; omega
    | ⟨1, _⟩ => show win3_3.index t (1 : Fin 2) * 64 + 1 * (y 1).val = (y 1).val; omega
  · show win3_4.index t (1 : Fin 2) * 64 + 1 * (j 1).val = (j 1).val
    omega

/-- An index of the output array is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v59).slice (win3_4.rect t)).set ↔ _
  rw [View.set_slice_whole, Rect.mem_set_unit]
  exact Iff.rfl

/-- Every index of the output array lies in the block of the point numbered by its row divided by 5000. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region: the whole-array step on the four input arrays as the region found them. -/
theorem result (c : Dev nD) :
    (dat3 V c).arrAt 4 cfg3.N = GraphConv.combineRow (V c main_v57) (V c main_v45) (V c main_v29) (V c main_v58) :=
  (dat3 V c).arrAt_eq_of_cover 4 _ (fun t _ => flushed_eq V c t) cover

end Cert.KernelIdeal.Blocks3

end
-- ==== Proof.RegionCombine5.lean ====
/-
  Region 5 of the kernel program: the combining step of a layer, computed block of rows by block of rows.

  The region's grid has 20 points. Point t stages rows 5000·t … 5000·t + 4999 of the edge sum and of the projected features
  (both 100000 × 128), the same rows of the per-node factor (a 100000 × 1 column) and the whole bias (a 1 × 128 row), forms
  (edge sum + features · factor) + bias entry by entry, takes the maximum with zero, and writes the 5000 × 128 result back as
  rows 5000·t … of the output array. Every entry of the result depends on the entries of the same row and column only, so
  each block written is the corresponding block of the whole-array step, and the 20 blocks tile the output.
-/
import proofs.«104169_j19911468384614_1_alg».proof.Proof.Gen.KernelIdeal.Frame
import proofs.«104169_j19911468384614_1_alg».proof.Proof.Spec
import proofs.«104169_j19911468384614_1_alg».proof.Proof.LibColumnBroadcast
import proofs.«104169_j19911468384614_1_alg».proof.Proof.LibOneRowMatrix
import Idealize.ShloMosaic.Lib.Pipeline.Value
import Idealize.ShloMosaic.Lib.ValueIdx

set_option maxRecDepth 16384

noncomputable section

namespace Cert.KernelIdeal.Blocks5

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at an entry: the column of factors is read at the entry's row, the row of biases at its column. -/
theorem payload_apply (xa xh : Vec Ideal S5000x128 .f32) (xs : Vec Ideal S5000x1 .f32) (xb : Vec Ideal S1x128 .f32) (p : Fin 5000) (q : Fin 128) :
    k5_pay1 xa xh xs xb (ix2 p q)
      = max ((xa (ix2 p q) + xh (ix2 p q) * xs (ix2 p (0 : Fin 1))) + xb (ix2 (0 : Fin 1) q)) (Ideal.ofBits .f32 0x00000000#32) := by
  unfold k5_pay1
  simp only [shapeCast_self]
  show max ((xa (ix2 p q) + xh (ix2 p q) * broadcastTo S5000x128 xs broadcasts_S5000x1_S5000x128 (ix2 p q)) + broadcastTo S5000x128 xb broadcasts_S1x128_S5000x128 (ix2 p q)) (Ideal.ofBits .f32 0x00000000#32) = _
  rw [ColumnBroadcast.broadcastTo_a1_ab_apply, OneRowMatrix.broadcast_row_apply]

/-- An entry of the step on staged blocks is the entry of the whole-array step at the array index the block entry came
    from. -/
theorem entry_block (A H : FVec Ideal S100000x128 .f32) (Sc : FVec Ideal S100000x1 .f32) (B : FVec Ideal S1x128 .f32)
    (xa xh : FVec Ideal S5000x128 .f32) (xs : FVec Ideal S5000x1 .f32) (xb : FVec Ideal S1x128 .f32) (j : S5000x128.Idx) (i : S100000x128.Idx)
    (ha : xa j = A i) (hh : xh j = H i) (hs : xs (ix2 (j 0) (0 : Fin 1)) = Sc (ix2 (i 0) (0 : Fin 1))) (hb : xb = B)
    (hcol : (i 1).val = (j 1).val) :
    k5_pay1 xa xh xs xb j = GraphConv.rectify (GraphConv.combineRow A H Sc B) i := by
  subst hb
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hcol
  subst hq
  rw [payload_apply]
  show _ = max ((A (ix2 p' q') + H (ix2 p' q') * Sc (ix2 p' (0 : Fin 1))) + xb (ix2 (0 : Fin 1) q')) (Ideal.ofBits .f32 0x00000000#32)
  rw [ha, hh]
  exact congrArg (fun z => max ((A (ix2 p' q') + H (ix2 p' q') * z) + xb (ix2 (0 : Fin 1) q')) (Ideal.ofBits .f32 0x00000000#32)) hs

/-- The printed index maps over the 20 grid points: the three row-blocked inputs move with the output down the rows, the
    bias block stays put, and the output's row-block number is the point's. -/
theorem idx_facts : ∀ t : Fin cfg5.N, win5_0.index t (0 : Fin 2) = win5_4.index t (0 : Fin 2)
    ∧ win5_0.index t (1 : Fin 2) = 0 ∧ win5_1.index t (0 : Fin 2) = win5_4.index t (0 : Fin 2)
    ∧ win5_1.index t (1 : Fin 2) = 0 ∧ win5_2.index t (0 : Fin 2) = win5_4.index t (0 : Fin 2)
    ∧ win5_2.index t (1 : Fin 2) = 0 ∧ win5_3.index t (0 : Fin 2) = 0 ∧ win5_3.index t (1 : Fin 2) = 0
    ∧ win5_4.index t (1 : Fin 2) = 0 ∧ win5_4.index t (0 : Fin 2) ≤ 19 :=
  (by decide +kernel : ∀ t : Fin grid5.N, _)

/-- Every block of rows of the output is some point's. -/
theorem idx_onto : ∀ q0 : Fin 20, ∃ t : Fin cfg5.N, win5_4.index t = ![q0.val, 0] :=
  (by decide +kernel : ∀ q0 : Fin 20, ∃ t : Fin grid5.N, win5_4.index t = ![q0.val, 0])

set_option maxHeartbeats 1000000 in
/-- What point t writes back is block t of the whole-array step on the four arrays as the region found them. -/
theorem flushed_eq (c : Dev nD) (t : Fin cfg5.N) :
    (dat5 V c).flushed 4 t
      = ((cfg5.win 4).blk t).view.read (Elt Ideal) (GraphConv.rectify (GraphConv.combineRow (V c main_v72) (V c main_v60) (V c main_v29) (V c main_v73))) := by
  show (cfg5.win 4).cut (grid5.coords t) ((dat5 V c).after 4 t) = _
  rw [after5_4]
  unfold out5_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := idx_facts t
  funext j
  show k5_pay1 (iblk5 V c 0 t) (iblk5 V c 1 t) (iblk5 V c 2 t) (iblk5 V c 3 t) j
    = (GraphConv.rectify (GraphConv.combineRow (V c main_v72) (V c main_v60) (V c main_v29) (V c main_v73))) (((cfg5.win 4).blk t).view.emb j)
  refine entry_block (V c main_v72) (V c main_v60) (V c main_v29) (V c main_v73) (iblk5 V c 0 t) (iblk5 V c 1 t) (iblk5 V c 2 t) (iblk5 V c 3 t)
    j (((cfg5.win 4).blk t).view.emb j) ?_ ?_ ?_ ?_ ?_
  · show V c main_v72 (((cfg5.win 0).blk t).view.emb j) = V c main_v72 (((cfg5.win 4).blk t).view.emb j)
    refine congrArg (V c main_v72) (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  · show V c main_v60 (((cfg5.win 1).blk t).view.emb j) = V c main_v60 (((cfg5.win 4).blk t).view.emb j)
    refine congrArg (V c main_v60) (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  · show V c main_v29 (((cfg5.win 2).blk t).view.emb (ix2 (j 0) (0 : Fin 1))) = V c main_v29 (ix2 ((((cfg5.win 4).blk t).view.emb j) 0) (0 : Fin 1))
    refine congrArg (V c main_v29) (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  · funext y
    show V c main_v73 (((cfg5.win 3).blk t).view.emb y) = V c main_v73 y
    refine congrArg (V c main_v73) (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · show win5_4.index t (1 : Fin 2) * 128 + 1 * (j 1).val = (j 1).val
    omega

/-- An index of the output array is in point t's block iff each coordinate is in the block's range on its axis. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v74).slice (win5_4.rect t)).set ↔ _
  rw [View.set_slice_whole, Rect.mem_set_unit]
  exact Iff.rfl

/-- Every index of the output array lies in the block of the point numbered by its row divided by 5000. -/
theorem cover (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := idx_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The output array after the region: the whole-array step on the four input arrays as the region found them. -/
theorem result (c : Dev nD) :
    (dat5 V c).arrAt 4 cfg5.N = GraphConv.rectify (GraphConv.combineRow (V c main_v72) (V c main_v60) (V c main_v29) (V c main_v73)) :=
  (dat5 V c).arrAt_eq_of_cover 4 _ (fun t _ => flushed_eq V c t) cover

end Cert.KernelIdeal.Blocks5

end
-- ==== Proof.RegionCombine7.lean ====
/-
  Region 7 of the kernel program: the combining step of a layer, computed block of rows by block of rows.

  The region's grid has 20 points. Point t stages rows 5000·t … 5000·t + 4999 of the edge sum and of the projected features
  (both 100000 × 128), the same rows of the per-node factor (a 100000 × 1 column) and the whole bias (a 1 × 128 row), forms
  (edge sum + features · factor) + bias entry by entry and writes the 5000 × 128 result back as
  rows 5000·t … of the output array. Every entry of the result depends on the entries of the same row and column only, so
  each block written is the corresponding block of the whole-array step, and the 20 blocks tile the output.
-/
import proofs.«104169_j19911468384614_1_alg».proof.Proof.Gen.KernelIdeal.Frame
import proofs.«104169_j19911468384614_1_alg».proof.Proof.Spec
import proofs.«104169_j19911468384614_1_alg».proof.Proof.LibColumnBroadcast
import proofs.«104169_j19911468384614_1_alg».proof.Proof.LibOneRowMatrix
import Idealize.ShloMosaic.Lib.Pipeline.Value
import Idealize.ShloMosaic.Lib.ValueIdx

set_option maxRecDepth 16384

noncomputable section

namespace Cert.KernelIdeal.Blocks7

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at an entry: the column of factors is read at the entry's row, the row of biases at its column. -/
theorem payload_apply (xa xh : Vec Ideal S5000x128 .f32) (xs : Vec Ideal S5000x1 .f32) (xb : Vec Ideal S1x128 .f32) (p : Fin 5000) (q : Fin 128) :
    k7_pay1 xa xh xs xb (ix2 p q)
      = (xa (ix2 p q) + xh (ix2 p q) * xs (ix2 p (0 : Fin 1))) + xb (ix2 (0 : Fin 1) q) := by
  unfold k7_pay1
  simp only [shapeCast_self]
  show (xa (ix2 p q) + xh (ix2 p q) * broadcastTo S5000x128 xs broadcasts_S5000x1_S5000x128 (ix2 p q)) + broadcastTo S5000x128 xb broadcasts_S1x128_S5000x128 (ix2 p q) = _
  rw [ColumnBroadcast.broadcastTo_a1_ab_apply, OneRowMatrix.broadcast_row_apply]

/-- An entry of the step on staged blocks is the entry of the whole-array step at the array index the block entry came
    from. -/
theorem entry_block (A H : FVec Ideal S100000x128 .f32) (Sc : FVec Ideal S100000x1 .f32) (B : FVec Ideal S1x128 .f32)
    (xa xh : FVec Ideal S5000x128 .f32) (xs : FVec Ideal S5000x1 .f32) (xb : FVec Ideal S1x128 .f32) (j : S5000x128.Idx) (i : S100000x128.Idx)
    (ha : xa j = A i) (hh : xh j = H i) (hs : xs (ix2 (j 0) (0 : Fin 1)) = Sc (ix2 (i 0) (0 : Fin 1))) (hb : xb = B)
    (hcol : (i 1).val = (j 1).val) :
    k7_pay1 xa xh xs xb j = GraphConv.combineRow A H Sc B i := by
  subst hb
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hcol
  subst hq
  rw [payload_apply]
  show _ = (A (ix2 p' q') + H (ix2 p' q') * Sc (ix2 p' (0 : Fin 1))) + xb (ix2 (0 : Fin 1) q')
  rw [ha, hh]
  exact congrArg (fun z => (A (ix2 p' q') + H (ix2 p' q') * z) + xb (ix2 (0 : Fin 1) q')) hs

/-- The printed index maps over the 20 grid points: the three row-blocked inputs move with the output down the rows, the
    bias block stays put, and the output's row-block number is the point's. -/
theorem idx_facts : ∀ t : Fin cfg7.N, win7_0.index t (0 : Fin 2) = win7_4.index t (0 : Fin 2)
    ∧ win7_0.index t (1 : Fin 2) = 0 ∧ win7_1.index t (0 : Fin 2) = win7_4.index t (0 : Fin 2)
    ∧ win7_1.index t (1 : Fin 2) = 0 ∧ win7_2.index t (0 : Fin 2) = win7_4.index t (0 : Fin 2)
    ∧ win7_2.index t (1 : Fin 2) = 0 ∧ win7_3.index t (0 : Fin 2) = 0 ∧ win7_3.index t (1 : Fin 2) = 0
    ∧ win7_4.index t (1 : Fin 2) = 0 ∧ win7_4.index t (0 : Fin 2) ≤ 19 :=
  (by decide +kernel : ∀ t : Fin grid7.N, _)

/-- Every block of rows of the output is some point's. -/
theorem idx_onto : ∀ q0 : Fin 20, ∃ t : Fin cfg7.N, win7_4.index t = ![q0.val, 0] :=
  (by decide +kernel : ∀ q0 : Fin 20, ∃ t : Fin grid7.N, win7_4.index t = ![q0.val, 0])

set_option maxHeartbeats 1000000 in
/-- What point t writes back is block t of the whole-array step on the four arrays as the region found them. -/
theorem flushed_eq (c : Dev nD) (t : Fin cfg7.N) :
    (dat7 V c).flushed 4 t
      = ((cfg7.win 4).blk t).view.read (Elt Ideal) (GraphConv.combineRow (V c main_v87) (V c main_v75) (V c main_v29) (V c main_v88)) := by
  show (cfg7.win 4).cut (grid7.coords t) ((dat7 V c).after 4 t) = _
  rw [after7_4]
  unfold out7_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := idx_facts t
  funext j
  show k7_pay1 (iblk7 V c 0 t) (iblk7 V c 1 t) (iblk7 V c 2 t) (iblk7 V c 3 t) j
    = (GraphConv.combineRow (V c main_v87) (V c main_v75) (V c main_v29) (V c main_v88)) (((cfg7.win 4).blk t).view.emb j)
  refine entry_block (V c main_v87) (V c main_v75) (V c main_v29) (V c main_v88) (iblk7 V c 0 t) (iblk7 V c 1 t) (iblk7 V c 2 t) (iblk7 V c 3 t)
    j (((cfg7.win 4).blk t).view.emb j) ?_ ?_ ?_ ?_ ?_
  · show V c main_v87 (((cfg7.win 0).blk t).view.emb j) = V c main_v87 (((cfg7.win 4).blk t).view.emb j)
    refine congrArg (V c main_v87) (funext fun a => Fin.ext ?_)
    match a with
    | ⟨0, _⟩ => show win7_0.index t (0 : Fin 2) * 5000 + 1 * (j 0).val = win7_4.index t (0 : Fin 2) * 5000 + 1 * (j 0).val; omega
    | ⟨1, _⟩ => show win7_0.index t (1 : Fin 2) * 128 + 1 * (j 1).val = win7_4.index t (1 : Fin 2) * 128 + 1 * (j 1).val; omega
  · show V c main_v75 (((cfg7.win 1).blk t).view.emb j) = V c main_v75 (((cfg7.win 4).blk t).view.emb j)
    refine congrArg (V c main_v75) (funext fun a => Fin.ext ?_)
    match a with
    | ⟨0, _⟩ => show win7_1.index t (0 : Fin 2) * 5000 + 1 * (j 0).val = win7_4.index t (0 : Fin 2) * 5000 + 1 * (j 0).val; omega
    | ⟨1, _⟩ => show win7_1.index t (1 : Fin 2) * 128 + 1 * (j 1).val = win7_4.index t (1 : Fin 2) * 128 + 1 * (j 1).val; omega
  · show V c main_v29 (((cfg7.win 2).blk t).view.emb (ix2 (j 0) (0 : Fin 1))) = V c main_v29 (ix2 ((((cfg7.win 4).blk t).view.emb j) 0) (0 : Fin 1))
    refine congrArg (V c main_v29) (funext fun a => Fin.ext ?_)
    match a with
    | ⟨0, _⟩ => show win7_2.index t (0 : Fin 2) * 5000 + 1 * (j 0).val = win7_4.index t (0 : Fin 2) * 5000 + 1 * (j 0).val; omega
    | ⟨1, _⟩ => show win7_2.index t (1 : Fin 2) * 1 + 1 * 0 = 0; omega
  · funext y
    show V c main_v88 (((cfg7.win 3).blk t).view.emb y) = V c main_v88 y
    refine congrArg (V c main_v88) (funext fun a => Fin.ext ?_)
    match a with
    | ⟨0, _⟩ => show win7_3.index t (0 : Fin 2) * 1 + 1 * (y 0).val = (y 0).val; omega
    | ⟨1, _⟩ => show win7_3.index t (1 : Fin 2) * 128 + 1 * (y 1).val = (y 1).val; omega
  · show win7_4.index t (1 : Fin 2) * 128 + 1 * (j 1).val = (j 1).val
    omega

/-- An index of the output array is in point t's block iff each coordinate is in the block's range on its axis. -/
theorem mem_blk (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v89).slice (win7_4.rect t)).set ↔ _
  rw [View.set_slice_whole, Rect.mem_set_unit]
  exact Iff.rfl

/-- Every index of the output array lies in the block of the point numbered by its row divided by 5000. -/
theorem cover (i : S100000x128.Idx) : ∃ t : Fin cfg7.N, (cfg7.win 4).flush t = true ∧ i ∈ ((cfg7.win 4).blk t).view.set := by
  have hi0 : (i 0).val < 100000 := (i 0).isLt
  have hi1 : (i 1).val < 128 := (i 1).isLt
  obtain ⟨t, ht⟩ := idx_onto ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_blk]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

/-- The output array after the region: the whole-array step on the four input arrays as the region found them. -/
theorem result (c : Dev nD) :
    (dat7 V c).arrAt 4 cfg7.N = GraphConv.combineRow (V c main_v87) (V c main_v75) (V c main_v29) (V c main_v88) :=
  (dat7 V c).arrAt_eq_of_cover 4 _ (fun t _ => flushed_eq V c t) cover

end Cert.KernelIdeal.Blocks7

end
-- ==== Proof.KernelFold.lean ====
/-
  The kernel program's buffers, boundary by boundary.

  The program's thirteen segments leave fourteen successive buffer contents, from the launch memory to the last
  boundary. A stretch of host operations changes exactly the buffers its operations write, and a kernel region changes
  exactly its output array, which ends at what the region computes from its input arrays as it found them. Read forward
  from the launch memory this gives, in turn: the sources, targets and the two scale factors computed once from the edge
  array; then, four times over, the projected features (a region: a matrix product), their edge sum and the bias as a
  one-row matrix (host operations), and the layer's output (a region: the combining step). The last output is the result
  buffer, and it holds the four stacked layers of the specification applied to the argument arrays.
-/
import proofs.«104169_j19911468384614_1_alg».proof.Proof.Gen.KernelIdeal.Frame
import proofs.«104169_j19911468384614_1_alg».proof.Proof.Spec
import proofs.«104169_j19911468384614_1_alg».proof.Proof.RegionProduct0
import proofs.«104169_j19911468384614_1_alg».proof.Proof.RegionProduct2
import proofs.«104169_j19911468384614_1_alg».proof.Proof.RegionProduct4
import proofs.«104169_j19911468384614_1_alg».proof.Proof.RegionProduct6
import proofs.«104169_j19911468384614_1_alg».proof.Proof.RegionCombine1
import proofs.«104169_j19911468384614_1_alg».proof.Proof.RegionCombine3
import proofs.«104169_j19911468384614_1_alg».proof.Proof.RegionCombine5
import proofs.«104169_j19911468384614_1_alg».proof.Proof.RegionCombine7
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-! ## What each segment leaves unchanged -/

/-- One operation's written buffer is among the listed ones. -/
local macro "writes_one" : tactic =>
  `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

/-- The buffers the host stretch before boundary 1 writes. -/
abbrev written1 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_cst_5, main_v27, main_v28, main_v29]
theorem writes1 : (hostOps0 : List (HloOp τ sig (Elt Ideal))).Forall fun op => op.writes ⊆ (written1.map (Proc.devRef (τ := τ) .tc)).toFinset := by
  simp only [List.Forall]; exact ⟨(by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one)⟩
/-- A buffer the stretch does not write holds at boundary 1 what it held at boundary 0. -/
theorem keep1 (c : Dev nD) (r : Ref sig .tc) (h : r ∉ written1) : W1 m ρ c (Proc.devRef .tc r) = W0 m ρ c (Proc.devRef .tc r) :=
  StableHlo.after_of_writes_sub hostOps0 _ writes1 h

/-- The buffers the host stretch before boundary 3 writes. -/
abbrev written3 : List (Ref sig .tc) := [main_c_6, main_v31, main_v32, main_c_7, main_v33, main_v34, main_v35, main_v36, main_v37, main_v38, main_v39, main_cst_8, main_v40, main_v41, main_v42, main_v43]
theorem writes3 : (hostOps1 : List (HloOp τ sig (Elt Ideal))).Forall fun op => op.writes ⊆ (written3.map (Proc.devRef (τ := τ) .tc)).toFinset := by
  simp only [List.Forall]; exact ⟨(by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one)⟩
/-- A buffer the stretch does not write holds at boundary 3 what it held at boundary 2. -/
theorem keep3 (c : Dev nD) (r : Ref sig .tc) (h : r ∉ written3) : W3 m ρ c (Proc.devRef .tc r) = W2 m ρ c (Proc.devRef .tc r) :=
  StableHlo.after_of_writes_sub hostOps1 _ writes3 h

/-- The buffers the host stretch before boundary 6 writes. -/
abbrev written6 : List (Ref sig .tc) := [main_c_9, main_v46, main_v47, main_c_10, main_v48, main_v49, main_v50, main_v51, main_v52, main_v53, main_v54, main_cst_11, main_v55, main_v56, main_v57, main_v58]
theorem writes6 : (hostOps3 : List (HloOp τ sig (Elt Ideal))).Forall fun op => op.writes ⊆ (written6.map (Proc.devRef (τ := τ) .tc)).toFinset := by
  simp only [List.Forall]; exact ⟨(by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one)⟩
/-- A buffer the stretch does not write holds at boundary 6 what it held at boundary 5. -/
theorem keep6 (c : Dev nD) (r : Ref sig .tc) (h : r ∉ written6) : W6 m ρ c (Proc.devRef .tc r) = W5 m ρ c (Proc.devRef .tc r) :=
  StableHlo.after_of_writes_sub hostOps3 _ writes6 h

/-- The buffers the host stretch before boundary 9 writes. -/
abbrev written9 : List (Ref sig .tc) := [main_c_12, main_v61, main_v62, main_c_13, main_v63, main_v64, main_v65, main_v66, main_v67, main_v68, main_v69, main_cst_14, main_v70, main_v71, main_v72, main_v73]
theorem writes9 : (hostOps5 : List (HloOp τ sig (Elt Ideal))).Forall fun op => op.writes ⊆ (written9.map (Proc.devRef (τ := τ) .tc)).toFinset := by
  simp only [List.Forall]; exact ⟨(by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one)⟩
/-- A buffer the stretch does not write holds at boundary 9 what it held at boundary 8. -/
theorem keep9 (c : Dev nD) (r : Ref sig .tc) (h : r ∉ written9) : W9 m ρ c (Proc.devRef .tc r) = W8 m ρ c (Proc.devRef .tc r) :=
  StableHlo.after_of_writes_sub hostOps5 _ writes9 h

/-- The buffers the host stretch before boundary 12 writes. -/
abbrev written12 : List (Ref sig .tc) := [main_c_15, main_v76, main_v77, main_c_16, main_v78, main_v79, main_v80, main_v81, main_v82, main_v83, main_v84, main_cst_17, main_v85, main_v86, main_v87, main_v88]
theorem writes12 : (hostOps7 : List (HloOp τ sig (Elt Ideal))).Forall fun op => op.writes ⊆ (written12.map (Proc.devRef (τ := τ) .tc)).toFinset := by
  simp only [List.Forall]; exact ⟨(by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one),
    (by writes_one)⟩
/-- A buffer the stretch does not write holds at boundary 12 what it held at boundary 11. -/
theorem keep12 (c : Dev nD) (r : Ref sig .tc) (h : r ∉ written12) : W12 m ρ c (Proc.devRef .tc r) = W11 m ρ c (Proc.devRef .tc r) :=
  StableHlo.after_of_writes_sub hostOps7 _ writes12 h

/-- Region 0 changes its output array only: every other buffer holds at boundary 2 what it held at boundary 1. -/
theorem keep2 (c : Dev nD) (r : Ref sig .tc) (h : r ≠ main_v30) : W2 m ρ c (Proc.devRef .tc r) = W1 m ρ c (Proc.devRef .tc r) := by
  by_cases hw : ∀ w, Pipeline.arrRef spec0 w ≠ r
  · exact W2_of_ne m ρ c r hw
  · obtain ⟨w, hw⟩ := not_forall.mp hw
    have hw' : Pipeline.arrRef spec0 w = r := not_not.mp hw
    subst hw'
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl h

/-- Region 1 changes its output array only: every other buffer holds at boundary 4 what it held at boundary 3. -/
theorem keep4 (c : Dev nD) (r : Ref sig .tc) (h : r ≠ main_v44) : W4 m ρ c (Proc.devRef .tc r) = W3 m ρ c (Proc.devRef .tc r) := by
  by_cases hw : ∀ w, Pipeline.arrRef spec1 w ≠ r
  · exact W4_of_ne m ρ c r hw
  · obtain ⟨w, hw⟩ := not_forall.mp hw
    have hw' : Pipeline.arrRef spec1 w = r := not_not.mp hw
    subst hw'
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd rfl h

/-- Region 2 changes its output array only: every other buffer holds at boundary 5 what it held at boundary 4. -/
theorem keep5 (c : Dev nD) (r : Ref sig .tc) (h : r ≠ main_v45) : W5 m ρ c (Proc.devRef .tc r) = W4 m ρ c (Proc.devRef .tc r) := by
  by_cases hw : ∀ w, Pipeline.arrRef spec2 w ≠ r
  · exact W5_of_ne m ρ c r hw
  · obtain ⟨w, hw⟩ := not_forall.mp hw
    have hw' : Pipeline.arrRef spec2 w = r := not_not.mp hw
    subst hw'
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact absurd rfl h

/-- Region 3 changes its output array only: every other buffer holds at boundary 7 what it held at boundary 6. -/
theorem keep7 (c : Dev nD) (r : Ref sig .tc) (h : r ≠ main_v59) : W7 m ρ c (Proc.devRef .tc r) = W6 m ρ c (Proc.devRef .tc r) := by
  by_cases hw : ∀ w, Pipeline.arrRef spec3 w ≠ r
  · exact W7_of_ne m ρ c r hw
  · obtain ⟨w, hw⟩ := not_forall.mp hw
    have hw' : Pipeline.arrRef spec3 w = r := not_not.mp hw
    subst hw'
    match w with
    | ⟨0, _⟩ => exact (W7_arr m ρ c 0).trans (((dat3 (V6 m ρ) c).arrAt_in 0 rfl _).trans (A_eq3 (V6 m ρ) c 0))
    | ⟨1, _⟩ => exact (W7_arr m ρ c 1).trans (((dat3 (V6 m ρ) c).arrAt_in 1 rfl _).trans (A_eq3 (V6 m ρ) c 1))
    | ⟨2, _⟩ => exact (W7_arr m ρ c 2).trans (((dat3 (V6 m ρ) c).arrAt_in 2 rfl _).trans (A_eq3 (V6 m ρ) c 2))
    | ⟨3, _⟩ => exact (W7_arr m ρ c 3).trans (((dat3 (V6 m ρ) c).arrAt_in 3 rfl _).trans (A_eq3 (V6 m ρ) c 3))
    | ⟨4, _⟩ => exact absurd rfl h

/-- Region 4 changes its output array only: every other buffer holds at boundary 8 what it held at boundary 7. -/
theorem keep8 (c : Dev nD) (r : Ref sig .tc) (h : r ≠ main_v60) : W8 m ρ c (Proc.devRef .tc r) = W7 m ρ c (Proc.devRef .tc r) := by
  by_cases hw : ∀ w, Pipeline.arrRef spec4 w ≠ r
  · exact W8_of_ne m ρ c r hw
  · obtain ⟨w, hw⟩ := not_forall.mp hw
    have hw' : Pipeline.arrRef spec4 w = r := not_not.mp hw
    subst hw'
    match w with
    | ⟨0, _⟩ => exact (W8_arr m ρ c 0).trans (((dat4 (V7 m ρ) c).arrAt_in 0 rfl _).trans (A_eq4 (V7 m ρ) c 0))
    | ⟨1, _⟩ => exact (W8_arr m ρ c 1).trans (((dat4 (V7 m ρ) c).arrAt_in 1 rfl _).trans (A_eq4 (V7 m ρ) c 1))
    | ⟨2, _⟩ => exact absurd rfl h

/-- Region 5 changes its output array only: every other buffer holds at boundary 10 what it held at boundary 9. -/
theorem keep10 (c : Dev nD) (r : Ref sig .tc) (h : r ≠ main_v74) : W10 m ρ c (Proc.devRef .tc r) = W9 m ρ c (Proc.devRef .tc r) := by
  by_cases hw : ∀ w, Pipeline.arrRef spec5 w ≠ r
  · exact W10_of_ne m ρ c r hw
  · obtain ⟨w, hw⟩ := not_forall.mp hw
    have hw' : Pipeline.arrRef spec5 w = r := not_not.mp hw
    subst hw'
    match w with
    | ⟨0, _⟩ => exact (W10_arr m ρ c 0).trans (((dat5 (V9 m ρ) c).arrAt_in 0 rfl _).trans (A_eq5 (V9 m ρ) c 0))
    | ⟨1, _⟩ => exact (W10_arr m ρ c 1).trans (((dat5 (V9 m ρ) c).arrAt_in 1 rfl _).trans (A_eq5 (V9 m ρ) c 1))
    | ⟨2, _⟩ => exact (W10_arr m ρ c 2).trans (((dat5 (V9 m ρ) c).arrAt_in 2 rfl _).trans (A_eq5 (V9 m ρ) c 2))
    | ⟨3, _⟩ => exact (W10_arr m ρ c 3).trans (((dat5 (V9 m ρ) c).arrAt_in 3 rfl _).trans (A_eq5 (V9 m ρ) c 3))
    | ⟨4, _⟩ => exact absurd rfl h

/-- Region 6 changes its output array only: every other buffer holds at boundary 11 what it held at boundary 10. -/
theorem keep11 (c : Dev nD) (r : Ref sig .tc) (h : r ≠ main_v75) : W11 m ρ c (Proc.devRef .tc r) = W10 m ρ c (Proc.devRef .tc r) := by
  by_cases hw : ∀ w, Pipeline.arrRef spec6 w ≠ r
  · exact W11_of_ne m ρ c r hw
  · obtain ⟨w, hw⟩ := not_forall.mp hw
    have hw' : Pipeline.arrRef spec6 w = r := not_not.mp hw
    subst hw'
    match w with
    | ⟨0, _⟩ => exact (W11_arr m ρ c 0).trans (((dat6 (V10 m ρ) c).arrAt_in 0 rfl _).trans (A_eq6 (V10 m ρ) c 0))
    | ⟨1, _⟩ => exact (W11_arr m ρ c 1).trans (((dat6 (V10 m ρ) c).arrAt_in 1 rfl _).trans (A_eq6 (V10 m ρ) c 1))
    | ⟨2, _⟩ => exact absurd rfl h

/-- Region 7 changes its output array only: every other buffer holds at boundary 13 what it held at boundary 12. -/
theorem keep13 (c : Dev nD) (r : Ref sig .tc) (h : r ≠ main_v89) : W13 m ρ c (Proc.devRef .tc r) = W12 m ρ c (Proc.devRef .tc r) := by
  by_cases hw : ∀ w, Pipeline.arrRef spec7 w ≠ r
  · exact W13_of_ne m ρ c r hw
  · obtain ⟨w, hw⟩ := not_forall.mp hw
    have hw' : Pipeline.arrRef spec7 w = r := not_not.mp hw
    subst hw'
    match w with
    | ⟨0, _⟩ => exact (W13_arr m ρ c 0).trans (((dat7 (V12 m ρ) c).arrAt_in 0 rfl _).trans (A_eq7 (V12 m ρ) c 0))
    | ⟨1, _⟩ => exact (W13_arr m ρ c 1).trans (((dat7 (V12 m ρ) c).arrAt_in 1 rfl _).trans (A_eq7 (V12 m ρ) c 1))
    | ⟨2, _⟩ => exact (W13_arr m ρ c 2).trans (((dat7 (V12 m ρ) c).arrAt_in 2 rfl _).trans (A_eq7 (V12 m ρ) c 2))
    | ⟨3, _⟩ => exact (W13_arr m ρ c 3).trans (((dat7 (V12 m ρ) c).arrAt_in 3 rfl _).trans (A_eq7 (V12 m ρ) c 3))
    | ⟨4, _⟩ => exact absurd rfl h

/-! ## The launch memory and the first host stretch -/

/-- An argument array holds at boundary 1 what it was launched with. -/
theorem arg0_at1 (c : Dev nD) : W1 m ρ c (Proc.devRef .tc main_arg0) = (m ((c : Thread nD τ).loc main_arg0)) := keep1 m ρ c main_arg0 (by decide)
theorem arg1_at1 (c : Dev nD) : W1 m ρ c (Proc.devRef .tc main_arg1) = (m ((c : Thread nD τ).loc main_arg1)) := keep1 m ρ c main_arg1 (by decide)
theorem arg2_at1 (c : Dev nD) : W1 m ρ c (Proc.devRef .tc main_arg2) = (m ((c : Thread nD τ).loc main_arg2)) := keep1 m ρ c main_arg2 (by decide)
theorem arg3_at1 (c : Dev nD) : W1 m ρ c (Proc.devRef .tc main_arg3) = (m ((c : Thread nD τ).loc main_arg3)) := keep1 m ρ c main_arg3 (by decide)
theorem arg4_at1 (c : Dev nD) : W1 m ρ c (Proc.devRef .tc main_arg4) = (m ((c : Thread nD τ).loc main_arg4)) := keep1 m ρ c main_arg4 (by decide)
theorem arg5_at1 (c : Dev nD) : W1 m ρ c (Proc.devRef .tc main_arg5) = (m ((c : Thread nD τ).loc main_arg5)) := keep1 m ρ c main_arg5 (by decide)
theorem arg6_at1 (c : Dev nD) : W1 m ρ c (Proc.devRef .tc main_arg6) = (m ((c : Thread nD τ).loc main_arg6)) := keep1 m ρ c main_arg6 (by decide)
theorem arg7_at1 (c : Dev nD) : W1 m ρ c (Proc.devRef .tc main_arg7) = (m ((c : Thread nD τ).loc main_arg7)) := keep1 m ρ c main_arg7 (by decide)
theorem arg8_at1 (c : Dev nD) : W1 m ρ c (Proc.devRef .tc main_arg8) = (m ((c : Thread nD τ).loc main_arg8)) := keep1 m ρ c main_arg8 (by decide)

/-- The edge sources, as the first stretch leaves them. -/
theorem src_at1 (c : Dev nD) : W1 m ρ c (Proc.devRef .tc main_v1) = GraphConv.src (m ((c : Thread nD τ).loc main_arg9)) := by
  show StableHlo.after hostOps0 (W0 m ρ c) (Proc.devRef .tc main_v1) = _
  dsimp only [hostOps0]; after_results_simp <;> rfl
/-- The edge targets. -/
theorem dst_at1 (c : Dev nD) : W1 m ρ c (Proc.devRef .tc main_v3) = GraphConv.dst (m ((c : Thread nD τ).loc main_arg9)) := by
  show StableHlo.after hostOps0 (W0 m ρ c) (Proc.devRef .tc main_v3) = _
  dsimp only [hostOps0]; after_results_simp <;> rfl
/-- The per-edge factor. -/
theorem edgeScale_at1 (c : Dev nD) : W1 m ρ c (Proc.devRef .tc main_v26) = GraphConv.edgeScale (m ((c : Thread nD τ).loc main_arg9)) := by
  show StableHlo.after hostOps0 (W0 m ρ c) (Proc.devRef .tc main_v26) = _
  dsimp only [hostOps0]; after_results_simp <;> rfl
/-- The per-node factor. -/
theorem selfScale_at1 (c : Dev nD) : W1 m ρ c (Proc.devRef .tc main_v29) = GraphConv.selfScale (m ((c : Thread nD τ).loc main_arg9)) := by
  show StableHlo.after hostOps0 (W0 m ρ c) (Proc.devRef .tc main_v29) = _
  dsimp only [hostOps0]; after_results_simp <;> rfl

/-! ## Layer 1 -/

/-- The layer's weights, as region 0 finds them. -/
theorem weight1 (c : Dev nD) : W1 m ρ c (Proc.devRef .tc main_arg1) = (m ((c : Thread nD τ).loc main_arg1)) :=
  arg1_at1 m ρ c
/-- The projected features: region 0's output is the product of the layer's input and its weights. -/
theorem proj1 (c : Dev nD) : W2 m ρ c (Proc.devRef .tc main_v30) = (MatrixProduct.prod (φ₁ := .f32) (φ₂ := .f32) (m ((c : Thread nD τ).loc main_arg0)) (m ((c : Thread nD τ).loc main_arg1))) :=
  (W2_arr m ρ c 2).trans <| (Blocks0.result (V1 m ρ) c).trans <|
    congrArg₂ (MatrixProduct.prod (φ₁ := .f32) (φ₂ := .f32)) (arg0_at1 m ρ c) (weight1 m ρ c)
/-- The edge sum of the projected features, as the host stretch leaves it. -/
theorem sum1 (c : Dev nD) : W3 m ρ c (Proc.devRef .tc main_v42) = GraphConv.edgeSum128 (MatrixProduct.prod (φ₁ := .f32) (φ₂ := .f32) (m ((c : Thread nD τ).loc main_arg0)) (m ((c : Thread nD τ).loc main_arg1))) (m ((c : Thread nD τ).loc main_arg9)) := by
  have hs : W2 m ρ c (Proc.devRef .tc main_v1) = GraphConv.src (m ((c : Thread nD τ).loc main_arg9)) := (keep2 m ρ c main_v1 (by decide)).trans <| src_at1 m ρ c
  have hd : W2 m ρ c (Proc.devRef .tc main_v3) = GraphConv.dst (m ((c : Thread nD τ).loc main_arg9)) := (keep2 m ρ c main_v3 (by decide)).trans <| dst_at1 m ρ c
  have he : W2 m ρ c (Proc.devRef .tc main_v26) = GraphConv.edgeScale (m ((c : Thread nD τ).loc main_arg9)) := (keep2 m ρ c main_v26 (by decide)).trans <| edgeScale_at1 m ρ c
  show StableHlo.after hostOps1 (W2 m ρ c) (Proc.devRef .tc main_v42) = _
  dsimp only [hostOps1]; after_results_simp
  rw [hs, hd, he, proj1 m ρ c]
  rfl
/-- The bias as a one-row matrix, as the host stretch leaves it. -/
theorem bias1 (c : Dev nD) : W3 m ρ c (Proc.devRef .tc main_v43) = shapeCast _ (m ((c : Thread nD τ).loc main_arg2)) shapeCasts_S128_S1x128 := by
  have hb : W2 m ρ c (Proc.devRef .tc main_arg2) = (m ((c : Thread nD τ).loc main_arg2)) := (keep2 m ρ c main_arg2 (by decide)).trans <| arg2_at1 m ρ c
  show StableHlo.after hostOps1 (W2 m ρ c) (Proc.devRef .tc main_v43) = _
  dsimp only [hostOps1]; after_results_simp
  rw [hb]
  rfl
/-- The layer's output: region 1 combines the edge sum, the projected features, the per-node factor and the bias. -/
theorem out1 (c : Dev nD) : W4 m ρ c (Proc.devRef .tc main_v44) = (GraphConv.layer1 (m ((c : Thread nD τ).loc main_arg0)) (m ((c : Thread nD τ).loc main_arg1)) (m ((c : Thread nD τ).loc main_arg2)) (m ((c : Thread nD τ).loc main_arg9))) := by
  have hh : W3 m ρ c (Proc.devRef .tc main_v30) = (MatrixProduct.prod (φ₁ := .f32) (φ₂ := .f32) (m ((c : Thread nD τ).loc main_arg0)) (m ((c : Thread nD τ).loc main_arg1))) := (keep3 m ρ c main_v30 (by decide)).trans <| proj1 m ρ c
  have hf : W3 m ρ c (Proc.devRef .tc main_v29) = GraphConv.selfScale (m ((c : Thread nD τ).loc main_arg9)) := (keep3 m ρ c main_v29 (by decide)).trans <| (keep2 m ρ c main_v29 (by decide)).trans <| selfScale_at1 m ρ c
  refine (W4_arr m ρ c 4).trans <| (Blocks1.result (V3 m ρ) c).trans ?_
  show GraphConv.rectify (GraphConv.combineRow (W3 m ρ c (Proc.devRef .tc main_v42)) (W3 m ρ c (Proc.devRef .tc main_v30)) (W3 m ρ c (Proc.devRef .tc main_v29)) (W3 m ρ c (Proc.devRef .tc main_v43))) = _
  rw [sum1 m ρ c, hh, hf, bias1 m ρ c, GraphConv.combineRow_cast]
  rfl

/-! ## Layer 2 -/

/-- The layer's weights, as region 2 finds them. -/
theorem weight2 (c : Dev nD) : W4 m ρ c (Proc.devRef .tc main_arg3) = (m ((c : Thread nD τ).loc main_arg3)) :=
  (keep4 m ρ c main_arg3 (by decide)).trans <| (keep3 m ρ c main_arg3 (by decide)).trans <| (keep2 m ρ c main_arg3 (by decide)).trans <| arg3_at1 m ρ c
/-- The projected features: region 2's output is the product of the layer's input and its weights. -/
theorem proj2 (c : Dev nD) : W5 m ρ c (Proc.devRef .tc main_v45) = (MatrixProduct.prod (φ₁ := .f32) (φ₂ := .f32) (GraphConv.layer1 (m ((c : Thread nD τ).loc main_arg0)) (m ((c : Thread nD τ).loc main_arg1)) (m ((c : Thread nD τ).loc main_arg2)) (m ((c : Thread nD τ).loc main_arg9))) (m ((c : Thread nD τ).loc main_arg3))) :=
  (W5_arr m ρ c 2).trans <| (Blocks2.result (V4 m ρ) c).trans <|
    congrArg₂ (MatrixProduct.prod (φ₁ := .f32) (φ₂ := .f32)) (out1 m ρ c) (weight2 m ρ c)
/-- The edge sum of the projected features, as the host stretch leaves it. -/
theorem sum2 (c : Dev nD) : W6 m ρ c (Proc.devRef .tc main_v57) = GraphConv.edgeSum64 (MatrixProduct.prod (φ₁ := .f32) (φ₂ := .f32) (GraphConv.layer1 (m ((c : Thread nD τ).loc main_arg0)) (m ((c : Thread nD τ).loc main_arg1)) (m ((c : Thread nD τ).loc main_arg2)) (m ((c : Thread nD τ).loc main_arg9))) (m ((c : Thread nD τ).loc main_arg3))) (m ((c : Thread nD τ).loc main_arg9)) := by
  have hs : W5 m ρ c (Proc.devRef .tc main_v1) = GraphConv.src (m ((c : Thread nD τ).loc main_arg9)) := (keep5 m ρ c main_v1 (by decide)).trans <| (keep4 m ρ c main_v1 (by decide)).trans <| (keep3 m ρ c main_v1 (by decide)).trans <| (keep2 m ρ c main_v1 (by decide)).trans <| src_at1 m ρ c
  have hd : W5 m ρ c (Proc.devRef .tc main_v3) = GraphConv.dst (m ((c : Thread nD τ).loc main_arg9)) := (keep5 m ρ c main_v3 (by decide)).trans <| (keep4 m ρ c main_v3 (by decide)).trans <| (keep3 m ρ c main_v3 (by decide)).trans <| (keep2 m ρ c main_v3 (by decide)).trans <| dst_at1 m ρ c
  have he : W5 m ρ c (Proc.devRef .tc main_v26) = GraphConv.edgeScale (m ((c : Thread nD τ).loc main_arg9)) := (keep5 m ρ c main_v26 (by decide)).trans <| (keep4 m ρ c main_v26 (by decide)).trans <| (keep3 m ρ c main_v26 (by decide)).trans <| (keep2 m ρ c main_v26 (by decide)).trans <| edgeScale_at1 m ρ c
  show StableHlo.after hostOps3 (W5 m ρ c) (Proc.devRef .tc main_v57) = _
  dsimp only [hostOps3]; after_results_simp
  rw [hs, hd, he, proj2 m ρ c]
  rfl
/-- The bias as a one-row matrix, as the host stretch leaves it. -/
theorem bias2 (c : Dev nD) : W6 m ρ c (Proc.devRef .tc main_v58) = shapeCast _ (m ((c : Thread nD τ).loc main_arg4)) shapeCasts_S64_S1x64 := by
  have hb : W5 m ρ c (Proc.devRef .tc main_arg4) = (m ((c : Thread nD τ).loc main_arg4)) := (keep5 m ρ c main_arg4 (by decide)).trans <| (keep4 m ρ c main_arg4 (by decide)).trans <| (keep3 m ρ c main_arg4 (by decide)).trans <| (keep2 m ρ c main_arg4 (by decide)).trans <| arg4_at1 m ρ c
  show StableHlo.after hostOps3 (W5 m ρ c) (Proc.devRef .tc main_v58) = _
  dsimp only [hostOps3]; after_results_simp
  rw [hb]
  rfl
/-- The layer's output: region 3 combines the edge sum, the projected features, the per-node factor and the bias. -/
theorem out2 (c : Dev nD) : W7 m ρ c (Proc.devRef .tc main_v59) = (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) := by
  have hh : W6 m ρ c (Proc.devRef .tc main_v45) = (MatrixProduct.prod (φ₁ := .f32) (φ₂ := .f32) (GraphConv.layer1 (m ((c : Thread nD τ).loc main_arg0)) (m ((c : Thread nD τ).loc main_arg1)) (m ((c : Thread nD τ).loc main_arg2)) (m ((c : Thread nD τ).loc main_arg9))) (m ((c : Thread nD τ).loc main_arg3))) := (keep6 m ρ c main_v45 (by decide)).trans <| proj2 m ρ c
  have hf : W6 m ρ c (Proc.devRef .tc main_v29) = GraphConv.selfScale (m ((c : Thread nD τ).loc main_arg9)) := (keep6 m ρ c main_v29 (by decide)).trans <| (keep5 m ρ c main_v29 (by decide)).trans <| (keep4 m ρ c main_v29 (by decide)).trans <| (keep3 m ρ c main_v29 (by decide)).trans <| (keep2 m ρ c main_v29 (by decide)).trans <| selfScale_at1 m ρ c
  refine (W7_arr m ρ c 4).trans <| (Blocks3.result (V6 m ρ) c).trans ?_
  show GraphConv.combineRow (W6 m ρ c (Proc.devRef .tc main_v57)) (W6 m ρ c (Proc.devRef .tc main_v45)) (W6 m ρ c (Proc.devRef .tc main_v29)) (W6 m ρ c (Proc.devRef .tc main_v58)) = _
  rw [sum2 m ρ c, hh, hf, bias2 m ρ c, GraphConv.combineRow_cast]
  rfl

/-! ## Layer 3 -/

/-- The layer's weights, as region 4 finds them. -/
theorem weight3 (c : Dev nD) : W7 m ρ c (Proc.devRef .tc main_arg5) = (m ((c : Thread nD τ).loc main_arg5)) :=
  (keep7 m ρ c main_arg5 (by decide)).trans <| (keep6 m ρ c main_arg5 (by decide)).trans <| (keep5 m ρ c main_arg5 (by decide)).trans <| (keep4 m ρ c main_arg5 (by decide)).trans <| (keep3 m ρ c main_arg5 (by decide)).trans <| (keep2 m ρ c main_arg5 (by decide)).trans <| arg5_at1 m ρ c
/-- The projected features: region 4's output is the product of the layer's input and its weights. -/
theorem proj3 (c : Dev nD) : W8 m ρ c (Proc.devRef .tc main_v60) = (MatrixProduct.prod (φ₁ := .f32) (φ₂ := .f32) (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5))) :=
  (W8_arr m ρ c 2).trans <| (Blocks4.result (V7 m ρ) c).trans <|
    congrArg₂ (MatrixProduct.prod (φ₁ := .f32) (φ₂ := .f32)) (out2 m ρ c) (weight3 m ρ c)
/-- The edge sum of the projected features, as the host stretch leaves it. -/
theorem sum3 (c : Dev nD) : W9 m ρ c (Proc.devRef .tc main_v72) = GraphConv.edgeSum128 (MatrixProduct.prod (φ₁ := .f32) (φ₂ := .f32) (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5))) (m ((c : Thread nD τ).loc main_arg9)) := by
  have hs : W8 m ρ c (Proc.devRef .tc main_v1) = GraphConv.src (m ((c : Thread nD τ).loc main_arg9)) := (keep8 m ρ c main_v1 (by decide)).trans <| (keep7 m ρ c main_v1 (by decide)).trans <| (keep6 m ρ c main_v1 (by decide)).trans <| (keep5 m ρ c main_v1 (by decide)).trans <| (keep4 m ρ c main_v1 (by decide)).trans <| (keep3 m ρ c main_v1 (by decide)).trans <| (keep2 m ρ c main_v1 (by decide)).trans <| src_at1 m ρ c
  have hd : W8 m ρ c (Proc.devRef .tc main_v3) = GraphConv.dst (m ((c : Thread nD τ).loc main_arg9)) := (keep8 m ρ c main_v3 (by decide)).trans <| (keep7 m ρ c main_v3 (by decide)).trans <| (keep6 m ρ c main_v3 (by decide)).trans <| (keep5 m ρ c main_v3 (by decide)).trans <| (keep4 m ρ c main_v3 (by decide)).trans <| (keep3 m ρ c main_v3 (by decide)).trans <| (keep2 m ρ c main_v3 (by decide)).trans <| dst_at1 m ρ c
  have he : W8 m ρ c (Proc.devRef .tc main_v26) = GraphConv.edgeScale (m ((c : Thread nD τ).loc main_arg9)) := (keep8 m ρ c main_v26 (by decide)).trans <| (keep7 m ρ c main_v26 (by decide)).trans <| (keep6 m ρ c main_v26 (by decide)).trans <| (keep5 m ρ c main_v26 (by decide)).trans <| (keep4 m ρ c main_v26 (by decide)).trans <| (keep3 m ρ c main_v26 (by decide)).trans <| (keep2 m ρ c main_v26 (by decide)).trans <| edgeScale_at1 m ρ c
  show StableHlo.after hostOps5 (W8 m ρ c) (Proc.devRef .tc main_v72) = _
  dsimp only [hostOps5]; after_results_simp
  rw [hs, hd, he, proj3 m ρ c]
  rfl
/-- The bias as a one-row matrix, as the host stretch leaves it. -/
theorem bias3 (c : Dev nD) : W9 m ρ c (Proc.devRef .tc main_v73) = shapeCast _ (m ((c : Thread nD τ).loc main_arg6)) shapeCasts_S128_S1x128 := by
  have hb : W8 m ρ c (Proc.devRef .tc main_arg6) = (m ((c : Thread nD τ).loc main_arg6)) := (keep8 m ρ c main_arg6 (by decide)).trans <| (keep7 m ρ c main_arg6 (by decide)).trans <| (keep6 m ρ c main_arg6 (by decide)).trans <| (keep5 m ρ c main_arg6 (by decide)).trans <| (keep4 m ρ c main_arg6 (by decide)).trans <| (keep3 m ρ c main_arg6 (by decide)).trans <| (keep2 m ρ c main_arg6 (by decide)).trans <| arg6_at1 m ρ c
  show StableHlo.after hostOps5 (W8 m ρ c) (Proc.devRef .tc main_v73) = _
  dsimp only [hostOps5]; after_results_simp
  rw [hb]
  rfl
/-- The layer's output: region 5 combines the edge sum, the projected features, the per-node factor and the bias. -/
theorem out3 (c : Dev nD) : W10 m ρ c (Proc.devRef .tc main_v74) = (GraphConv.layer3 (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5)) (m ((c : Thread nD τ).loc main_arg6)) (m ((c : Thread nD τ).loc main_arg9))) := by
  have hh : W9 m ρ c (Proc.devRef .tc main_v60) = (MatrixProduct.prod (φ₁ := .f32) (φ₂ := .f32) (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5))) := (keep9 m ρ c main_v60 (by decide)).trans <| proj3 m ρ c
  have hf : W9 m ρ c (Proc.devRef .tc main_v29) = GraphConv.selfScale (m ((c : Thread nD τ).loc main_arg9)) := (keep9 m ρ c main_v29 (by decide)).trans <| (keep8 m ρ c main_v29 (by decide)).trans <| (keep7 m ρ c main_v29 (by decide)).trans <| (keep6 m ρ c main_v29 (by decide)).trans <| (keep5 m ρ c main_v29 (by decide)).trans <| (keep4 m ρ c main_v29 (by decide)).trans <| (keep3 m ρ c main_v29 (by decide)).trans <| (keep2 m ρ c main_v29 (by decide)).trans <| selfScale_at1 m ρ c
  refine (W10_arr m ρ c 4).trans <| (Blocks5.result (V9 m ρ) c).trans ?_
  show GraphConv.rectify (GraphConv.combineRow (W9 m ρ c (Proc.devRef .tc main_v72)) (W9 m ρ c (Proc.devRef .tc main_v60)) (W9 m ρ c (Proc.devRef .tc main_v29)) (W9 m ρ c (Proc.devRef .tc main_v73))) = _
  rw [sum3 m ρ c, hh, hf, bias3 m ρ c, GraphConv.combineRow_cast]
  rfl

/-! ## Layer 4 -/

/-- The layer's weights, as region 6 finds them. -/
theorem weight4 (c : Dev nD) : W10 m ρ c (Proc.devRef .tc main_arg7) = (m ((c : Thread nD τ).loc main_arg7)) :=
  (keep10 m ρ c main_arg7 (by decide)).trans <| (keep9 m ρ c main_arg7 (by decide)).trans <| (keep8 m ρ c main_arg7 (by decide)).trans <| (keep7 m ρ c main_arg7 (by decide)).trans <| (keep6 m ρ c main_arg7 (by decide)).trans <| (keep5 m ρ c main_arg7 (by decide)).trans <| (keep4 m ρ c main_arg7 (by decide)).trans <| (keep3 m ρ c main_arg7 (by decide)).trans <| (keep2 m ρ c main_arg7 (by decide)).trans <| arg7_at1 m ρ c
/-- The projected features: region 6's output is the product of the layer's input and its weights. -/
theorem proj4 (c : Dev nD) : W11 m ρ c (Proc.devRef .tc main_v75) = (MatrixProduct.prod (φ₁ := .f32) (φ₂ := .f32) (GraphConv.layer3 (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5)) (m ((c : Thread nD τ).loc main_arg6)) (m ((c : Thread nD τ).loc main_arg9))) (m ((c : Thread nD τ).loc main_arg7))) :=
  (W11_arr m ρ c 2).trans <| (Blocks6.result (V10 m ρ) c).trans <|
    congrArg₂ (MatrixProduct.prod (φ₁ := .f32) (φ₂ := .f32)) (out3 m ρ c) (weight4 m ρ c)
/-- The edge sum of the projected features, as the host stretch leaves it. -/
theorem sum4 (c : Dev nD) : W12 m ρ c (Proc.devRef .tc main_v87) = GraphConv.edgeSum128 (MatrixProduct.prod (φ₁ := .f32) (φ₂ := .f32) (GraphConv.layer3 (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5)) (m ((c : Thread nD τ).loc main_arg6)) (m ((c : Thread nD τ).loc main_arg9))) (m ((c : Thread nD τ).loc main_arg7))) (m ((c : Thread nD τ).loc main_arg9)) := by
  have hs : W11 m ρ c (Proc.devRef .tc main_v1) = GraphConv.src (m ((c : Thread nD τ).loc main_arg9)) := (keep11 m ρ c main_v1 (by decide)).trans <| (keep10 m ρ c main_v1 (by decide)).trans <| (keep9 m ρ c main_v1 (by decide)).trans <| (keep8 m ρ c main_v1 (by decide)).trans <| (keep7 m ρ c main_v1 (by decide)).trans <| (keep6 m ρ c main_v1 (by decide)).trans <| (keep5 m ρ c main_v1 (by decide)).trans <| (keep4 m ρ c main_v1 (by decide)).trans <| (keep3 m ρ c main_v1 (by decide)).trans <| (keep2 m ρ c main_v1 (by decide)).trans <| src_at1 m ρ c
  have hd : W11 m ρ c (Proc.devRef .tc main_v3) = GraphConv.dst (m ((c : Thread nD τ).loc main_arg9)) := (keep11 m ρ c main_v3 (by decide)).trans <| (keep10 m ρ c main_v3 (by decide)).trans <| (keep9 m ρ c main_v3 (by decide)).trans <| (keep8 m ρ c main_v3 (by decide)).trans <| (keep7 m ρ c main_v3 (by decide)).trans <| (keep6 m ρ c main_v3 (by decide)).trans <| (keep5 m ρ c main_v3 (by decide)).trans <| (keep4 m ρ c main_v3 (by decide)).trans <| (keep3 m ρ c main_v3 (by decide)).trans <| (keep2 m ρ c main_v3 (by decide)).trans <| dst_at1 m ρ c
  have he : W11 m ρ c (Proc.devRef .tc main_v26) = GraphConv.edgeScale (m ((c : Thread nD τ).loc main_arg9)) := (keep11 m ρ c main_v26 (by decide)).trans <| (keep10 m ρ c main_v26 (by decide)).trans <| (keep9 m ρ c main_v26 (by decide)).trans <| (keep8 m ρ c main_v26 (by decide)).trans <| (keep7 m ρ c main_v26 (by decide)).trans <| (keep6 m ρ c main_v26 (by decide)).trans <| (keep5 m ρ c main_v26 (by decide)).trans <| (keep4 m ρ c main_v26 (by decide)).trans <| (keep3 m ρ c main_v26 (by decide)).trans <| (keep2 m ρ c main_v26 (by decide)).trans <| edgeScale_at1 m ρ c
  show StableHlo.after hostOps7 (W11 m ρ c) (Proc.devRef .tc main_v87) = _
  dsimp only [hostOps7]; after_results_simp
  rw [hs, hd, he, proj4 m ρ c]
  rfl
/-- The bias as a one-row matrix, as the host stretch leaves it. -/
theorem bias4 (c : Dev nD) : W12 m ρ c (Proc.devRef .tc main_v88) = shapeCast _ (m ((c : Thread nD τ).loc main_arg8)) shapeCasts_S128_S1x128 := by
  have hb : W11 m ρ c (Proc.devRef .tc main_arg8) = (m ((c : Thread nD τ).loc main_arg8)) := (keep11 m ρ c main_arg8 (by decide)).trans <| (keep10 m ρ c main_arg8 (by decide)).trans <| (keep9 m ρ c main_arg8 (by decide)).trans <| (keep8 m ρ c main_arg8 (by decide)).trans <| (keep7 m ρ c main_arg8 (by decide)).trans <| (keep6 m ρ c main_arg8 (by decide)).trans <| (keep5 m ρ c main_arg8 (by decide)).trans <| (keep4 m ρ c main_arg8 (by decide)).trans <| (keep3 m ρ c main_arg8 (by decide)).trans <| (keep2 m ρ c main_arg8 (by decide)).trans <| arg8_at1 m ρ c
  show StableHlo.after hostOps7 (W11 m ρ c) (Proc.devRef .tc main_v88) = _
  dsimp only [hostOps7]; after_results_simp
  rw [hb]
  rfl
/-- The layer's output: region 7 combines the edge sum, the projected features, the per-node factor and the bias. -/
theorem out4 (c : Dev nD) : W13 m ρ c (Proc.devRef .tc main_v89) = (GraphConv.layer4 (GraphConv.layer3 (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5)) (m ((c : Thread nD τ).loc main_arg6)) (m ((c : Thread nD τ).loc main_arg9))) (m ((c : Thread nD τ).loc main_arg7)) (m ((c : Thread nD τ).loc main_arg8)) (m ((c : Thread nD τ).loc main_arg9))) := by
  have hh : W12 m ρ c (Proc.devRef .tc main_v75) = (MatrixProduct.prod (φ₁ := .f32) (φ₂ := .f32) (GraphConv.layer3 (GraphConv.layer2 (GraphConv.layer1 (m ((c : Thread nD τ).loc main_arg0)) (m ((c : Thread nD τ).loc main_arg1)) (m ((c : Thread nD τ).loc main_arg2)) (m ((c : Thread nD τ).loc main_arg9))) (m ((c : Thread nD τ).loc main_arg3)) (m ((c : Thread nD τ).loc main_arg4)) (m ((c : Thread nD τ).loc main_arg9))) (m ((c : Thread nD τ).loc main_arg5)) (m ((c : Thread nD τ).loc main_arg6)) (m ((c : Thread nD τ).loc main_arg9))) (m ((c : Thread nD τ).loc main_arg7))) := (keep12 m ρ c main_v75 (by decide)).trans <| proj4 m ρ c
  have hf : W12 m ρ c (Proc.devRef .tc main_v29) = GraphConv.selfScale (m ((c : Thread nD τ).loc main_arg9)) := (keep12 m ρ c main_v29 (by decide)).trans <| (keep11 m ρ c main_v29 (by decide)).trans <| (keep10 m ρ c main_v29 (by decide)).trans <| (keep9 m ρ c main_v29 (by decide)).trans <| (keep8 m ρ c main_v29 (by decide)).trans <| (keep7 m ρ c main_v29 (by decide)).trans <| (keep6 m ρ c main_v29 (by decide)).trans <| (keep5 m ρ c main_v29 (by decide)).trans <| (keep4 m ρ c main_v29 (by decide)).trans <| (keep3 m ρ c main_v29 (by decide)).trans <| (keep2 m ρ c main_v29 (by decide)).trans <| selfScale_at1 m ρ c
  refine (W13_arr m ρ c 4).trans <| (Blocks7.result (V12 m ρ) c).trans ?_
  show GraphConv.combineRow (W12 m ρ c (Proc.devRef .tc main_v87)) (W12 m ρ c (Proc.devRef .tc main_v75)) (W12 m ρ c (Proc.devRef .tc main_v29)) (W12 m ρ c (Proc.devRef .tc main_v88)) = _
  rw [sum4 m ρ c, hh, hf, bias4 m ρ c, GraphConv.combineRow_cast]
  rfl

/-! ## The result -/

/-- The result buffer at the last boundary holds the four stacked layers applied to the argument arrays. -/
theorem result_eq (c : Dev nD) : W13 m ρ c (Proc.devRef .tc main_v89)
    = GraphConv.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  out4 m ρ c

end Cert.KernelIdeal.Whole

end
-- ==== Proof.RefStages.lean ====
/-
  The reference program, stage by stage, is the specification.

  The reference computes each layer with host operations only. Its projected features are a dot_general, which over the
  extended reals is the matrix product; its edge sum is the same chain of host operations as the specification's; the
  per-node factor is broadcast along the rows and the bias down the columns, so that at entry (v, q) the layer's output is
  (edge sum + features · factor of node v) + bias of column q, rectified where the layer is. Layer by layer this is the
  specification's layer of the previous layer's output.
-/
import proofs.«104169_j19911468384614_1_alg».proof.Proof.Gen.ReferenceIdeal.Read
import proofs.«104169_j19911468384614_1_alg».proof.Proof.Spec
import Idealize.ShloMosaic.Lib.ValueIdx

set_option maxRecDepth 16384

noncomputable section

namespace Cert.ReferenceIdeal.Stages

open Cert.ReferenceIdeal Cert.ReferenceIdeal.Gen Cert.ReferenceIdeal.Read Idealize.ShloMosaic Idealize.ShloMosaic.ValueIdx

/-- The per-node factor as a column: the same operations in both programs. -/
theorem selfScale_eq (x9 : (⟨S2x1600000, .i32⟩ : BufTy).Contents (Elt Ideal)) : val_main_v42 (F := Ideal) x9 = GraphConv.selfScale x9 := rfl

/-! ## Layer 1 -/

/-- The projected features are the product of the layer's input and its weights. -/
theorem proj1_eq (x0 : (⟨S100000x128, .f32⟩ : BufTy).Contents (Elt Ideal)) (x1 : (⟨S128x128, .f32⟩ : BufTy).Contents (Elt Ideal)) : val_main_v11 (F := Ideal) x0 x1 = MatrixProduct.prod (φ₁ := .f32) (φ₂ := .f32) x0 x1 := by
  unfold val_main_v11
  exact MatrixProduct.dotGeneral_eq _ rfl rfl lhs_main_v11_0 lhs_main_v11_1 rhs_main_v11_0 rhs_main_v11_1 none _ _

set_option maxHeartbeats 2000000 in
/-- The edge sum of the projected features: the same operations in both programs. -/
theorem sum1_eq (x0 : (⟨S100000x128, .f32⟩ : BufTy).Contents (Elt Ideal)) (x1 : (⟨S128x128, .f32⟩ : BufTy).Contents (Elt Ideal)) (x9 : (⟨S2x1600000, .i32⟩ : BufTy).Contents (Elt Ideal)) : val_main_v39 (F := Ideal) x0 x1 x9 = GraphConv.edgeSum128 (val_main_v11 (F := Ideal) x0 x1) x9 := rfl

set_option maxHeartbeats 2000000 in
/-- The per-node factor of this layer is the one computed once. -/
theorem self1_eq (x9 : (⟨S2x1600000, .i32⟩ : BufTy).Contents (Elt Ideal)) : val_main_v42 (F := Ideal) x9 = GraphConv.selfScale x9 := rfl

/-- The layer's output is the specification's layer of its input. -/
theorem layer1_eq (x0 : (⟨S100000x128, .f32⟩ : BufTy).Contents (Elt Ideal)) (x1 : (⟨S128x128, .f32⟩ : BufTy).Contents (Elt Ideal)) (x2 : (⟨S128, .f32⟩ : BufTy).Contents (Elt Ideal)) (x9 : (⟨S2x1600000, .i32⟩ : BufTy).Contents (Elt Ideal)) : val_main_v49 (F := Ideal) x0 x1 x2 x9 = GraphConv.layer1 x0 x1 x2 x9 := by
  funext i
  obtain ⟨p, q, rfl⟩ : ∃ (p : Fin 100000) (q : Fin 128), i = ix2 p q := ⟨i 0, i 1, eq_ix2 i⟩
  rw [val_main_v49_apply, val_main_v48_apply, val_main_v45_apply, val_main_v44_apply, val_main_v43_apply, val_main_v47_apply, val_main_v46_apply]
  have e1 : idx_main_v43 (ix2 p q) = ix2 p (0 : Fin 1) := funext fun a => Fin.ext (by
    match a with
    | ⟨0, _⟩ => rfl
    | ⟨1, _⟩ => rfl)
  have e2 : idx_main_v46 (idx_main_v47 (ix2 p q)) = ix1 q := funext fun a => Fin.ext (by
    match a with
    | ⟨0, _⟩ => rfl)
  rw [e1, e2, sum1_eq, proj1_eq, self1_eq]
  rfl

/-! ## Layer 2 -/

/-- The projected features are the product of the layer's input and its weights. -/
theorem proj2_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x9 : (⟨S2x1600000, .i32⟩ : BufTy).Contents (Elt Ideal)) : val_main_v50 (F := Ideal) x0 x1 x2 x3 x9 = MatrixProduct.prod (φ₁ := .f32) (φ₂ := .f32) (val_main_v49 (F := Ideal) x0 x1 x2 x9) x3 := by
  unfold val_main_v50
  exact MatrixProduct.dotGeneral_eq _ rfl rfl lhs_main_v50_0 lhs_main_v50_1 rhs_main_v50_0 rhs_main_v50_1 none _ _

set_option maxHeartbeats 2000000 in
/-- The edge sum of the projected features: the same operations in both programs. -/
theorem sum2_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x9 : (⟨S2x1600000, .i32⟩ : BufTy).Contents (Elt Ideal)) : val_main_v78 (F := Ideal) x0 x1 x2 x3 x9 = GraphConv.edgeSum64 (val_main_v50 (F := Ideal) x0 x1 x2 x3 x9) x9 := rfl

set_option maxHeartbeats 2000000 in
/-- The per-node factor of this layer is the one computed once. -/
theorem self2_eq (x9 : (⟨S2x1600000, .i32⟩ : BufTy).Contents (Elt Ideal)) : val_main_v81 (F := Ideal) x9 = GraphConv.selfScale x9 := rfl

/-- The layer's output is the specification's layer of its input. -/
theorem layer2_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x9 : (⟨S2x1600000, .i32⟩ : BufTy).Contents (Elt Ideal)) : val_main_v87 (F := Ideal) x0 x1 x2 x3 x4 x9 = GraphConv.layer2 (val_main_v49 (F := Ideal) x0 x1 x2 x9) x3 x4 x9 := by
  funext i
  obtain ⟨p, q, rfl⟩ : ∃ (p : Fin 100000) (q : Fin 64), i = ix2 p q := ⟨i 0, i 1, eq_ix2 i⟩
  rw [val_main_v87_apply, val_main_v84_apply, val_main_v83_apply, val_main_v82_apply, val_main_v86_apply, val_main_v85_apply]
  have e1 : idx_main_v82 (ix2 p q) = ix2 p (0 : Fin 1) := funext fun a => Fin.ext (by
    match a with
    | ⟨0, _⟩ => rfl
    | ⟨1, _⟩ => rfl)
  have e2 : idx_main_v85 (idx_main_v86 (ix2 p q)) = ix1 q := funext fun a => Fin.ext (by
    match a with
    | ⟨0, _⟩ => rfl)
  rw [e1, e2, sum2_eq, proj2_eq, self2_eq]
  rfl

/-! ## Layer 3 -/

/-- The projected features are the product of the layer's input and its weights. -/
theorem proj3_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x9 : (⟨S2x1600000, .i32⟩ : BufTy).Contents (Elt Ideal)) : val_main_v88 (F := Ideal) x0 x1 x2 x3 x4 x5 x9 = MatrixProduct.prod (φ₁ := .f32) (φ₂ := .f32) (val_main_v87 (F := Ideal) x0 x1 x2 x3 x4 x9) x5 := by
  unfold val_main_v88
  exact MatrixProduct.dotGeneral_eq _ rfl rfl lhs_main_v88_0 lhs_main_v88_1 rhs_main_v88_0 rhs_main_v88_1 none _ _

set_option maxHeartbeats 2000000 in
/-- The edge sum of the projected features: the same operations in both programs. -/
theorem sum3_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x9 : (⟨S2x1600000, .i32⟩ : BufTy).Contents (Elt Ideal)) : val_main_v116 (F := Ideal) x0 x1 x2 x3 x4 x5 x9 = GraphConv.edgeSum128 (val_main_v88 (F := Ideal) x0 x1 x2 x3 x4 x5 x9) x9 := rfl

set_option maxHeartbeats 2000000 in
/-- The per-node factor of this layer is the one computed once. -/
theorem self3_eq (x9 : (⟨S2x1600000, .i32⟩ : BufTy).Contents (Elt Ideal)) : val_main_v119 (F := Ideal) x9 = GraphConv.selfScale x9 := rfl

/-- The layer's output is the specification's layer of its input. -/
theorem layer3_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x9 : (⟨S2x1600000, .i32⟩ : BufTy).Contents (Elt Ideal)) : val_main_v126 (F := Ideal) x0 x1 x2 x3 x4 x5 x6 x9 = GraphConv.layer3 (val_main_v87 (F := Ideal) x0 x1 x2 x3 x4 x9) x5 x6 x9 := by
  funext i
  obtain ⟨p, q, rfl⟩ : ∃ (p : Fin 100000) (q : Fin 128), i = ix2 p q := ⟨i 0, i 1, eq_ix2 i⟩
  rw [val_main_v126_apply, val_main_v125_apply, val_main_v122_apply, val_main_v121_apply, val_main_v120_apply, val_main_v124_apply, val_main_v123_apply]
  have e1 : idx_main_v120 (ix2 p q) = ix2 p (0 : Fin 1) := funext fun a => Fin.ext (by
    match a with
    | ⟨0, _⟩ => rfl
    | ⟨1, _⟩ => rfl)
  have e2 : idx_main_v123 (idx_main_v124 (ix2 p q)) = ix1 q := funext fun a => Fin.ext (by
    match a with
    | ⟨0, _⟩ => rfl)
  rw [e1, e2, sum3_eq, proj3_eq, self3_eq]
  rfl

/-! ## Layer 4 -/

/-- The projected features are the product of the layer's input and its weights. -/
theorem proj4_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x9 : (⟨S2x1600000, .i32⟩ : BufTy).Contents (Elt Ideal)) : val_main_v127 (F := Ideal) x0 x1 x2 x3 x4 x5 x6 x7 x9 = MatrixProduct.prod (φ₁ := .f32) (φ₂ := .f32) (val_main_v126 (F := Ideal) x0 x1 x2 x3 x4 x5 x6 x9) x7 := by
  unfold val_main_v127
  exact MatrixProduct.dotGeneral_eq _ rfl rfl lhs_main_v127_0 lhs_main_v127_1 rhs_main_v127_0 rhs_main_v127_1 none _ _

set_option maxHeartbeats 2000000 in
/-- The edge sum of the projected features: the same operations in both programs. -/
theorem sum4_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x9 : (⟨S2x1600000, .i32⟩ : BufTy).Contents (Elt Ideal)) : val_main_v155 (F := Ideal) x0 x1 x2 x3 x4 x5 x6 x7 x9 = GraphConv.edgeSum128 (val_main_v127 (F := Ideal) x0 x1 x2 x3 x4 x5 x6 x7 x9) x9 := rfl

set_option maxHeartbeats 2000000 in
/-- The per-node factor of this layer is the one computed once. -/
theorem self4_eq (x9 : (⟨S2x1600000, .i32⟩ : BufTy).Contents (Elt Ideal)) : val_main_v158 (F := Ideal) x9 = GraphConv.selfScale x9 := rfl

/-- The layer's output is the specification's layer of its input. -/
theorem layer4_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S2x1600000, .i32⟩ : BufTy).Contents (Elt Ideal)) : val_main_v164 (F := Ideal) x0 x1 x2 x3 x4 x5 x6 x7 x8 x9 = GraphConv.layer4 (val_main_v126 (F := Ideal) x0 x1 x2 x3 x4 x5 x6 x9) x7 x8 x9 := by
  funext i
  obtain ⟨p, q, rfl⟩ : ∃ (p : Fin 100000) (q : Fin 128), i = ix2 p q := ⟨i 0, i 1, eq_ix2 i⟩
  rw [val_main_v164_apply, val_main_v161_apply, val_main_v160_apply, val_main_v159_apply, val_main_v163_apply, val_main_v162_apply]
  have e1 : idx_main_v159 (ix2 p q) = ix2 p (0 : Fin 1) := funext fun a => Fin.ext (by
    match a with
    | ⟨0, _⟩ => rfl
    | ⟨1, _⟩ => rfl)
  have e2 : idx_main_v162 (idx_main_v163 (ix2 p q)) = ix1 q := funext fun a => Fin.ext (by
    match a with
    | ⟨0, _⟩ => rfl)
  rw [e1, e2, sum4_eq, proj4_eq, self4_eq]
  rfl

/-! ## The whole program -/

/-- The reference's result is the four stacked layers of the specification applied to the argument arrays. -/
theorem result_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S2x1600000, .i32⟩ : BufTy).Contents (Elt Ideal)) :
    val_main_v164 (F := Ideal) x0 x1 x2 x3 x4 x5 x6 x7 x8 x9 = GraphConv.network x0 x1 x2 x3 x4 x5 x6 x7 x8 x9 := by
  rw [layer4_eq, layer3_eq, layer2_eq, layer1_eq]
  rfl

end Cert.ReferenceIdeal.Stages

end
-- ==== Proof.lean ====
/-
  Four stacked layers of graph convolution over 100000 nodes and 1600000 edges: the kernel program against its reference.

  Both programs compute, layer by layer, out(v, q) = ( Σ over edges e ending at v of h(source e, q) · s(source e) · s(target e)
  + h(v, q) / degree v ) + b(q) with h = z · w the projected features and s = degree^(-1/2), the first and third layers
  followed by max(·, 0). The kernel program computes h and the combining step in kernel regions, each over twenty blocks
  of 5000 rows, and the edge sum with host operations in between; the reference computes everything with host operations.
  Over the extended reals, where a change of float format is the identity and a sum has no order:

  · a region that multiplies blocks of rows by the whole weight matrix leaves the whole matrix product, because a row of a
    product reads one row of the left factor, and the blocks tile the rows;
  · a region that combines blocks of rows leaves the whole-array combining step, because an entry of it reads its own row
    and column only;
  · the reference's dot_general is the same matrix product, and its broadcasts of the per-node factor along the rows and
    of the bias down the columns read, at an entry, the factor of its row and the bias of its column;
  · the edge sum, the degrees and the two scale factors are the same host operations in both programs.

  So both results are one function of the argument arrays (`GraphConv.network`), with no condition on the inputs: the
  precondition is not used. The kernel's idealization rewrote no operation, so that claim is trivial; the frames of the
  two kernel programs are the generated ones, and the reference's frame is its run with the result dropped.
-/
import proofs.«104169_j19911468384614_1_alg».proof.Defs
import proofs.«104169_j19911468384614_1_alg».proof.Proof.Gen.Kernel
import proofs.«104169_j19911468384614_1_alg».proof.Proof.Gen.Kernel.Frame
import proofs.«104169_j19911468384614_1_alg».proof.Proof.Gen.KernelIdeal
import proofs.«104169_j19911468384614_1_alg».proof.Proof.Gen.KernelIdeal.Frame
import proofs.«104169_j19911468384614_1_alg».proof.Proof.Gen.ReferenceIdeal
import proofs.«104169_j19911468384614_1_alg».proof.Proof.Gen.ReferenceIdeal.Run
import proofs.«104169_j19911468384614_1_alg».proof.Proof.Gen.ReferenceIdeal.Read
import proofs.«104169_j19911468384614_1_alg».proof.Proof.Gen.Pre_finite_inputs
import proofs.«104169_j19911468384614_1_alg».proof.Proof.Spec
import proofs.«104169_j19911468384614_1_alg».proof.Proof.KernelRun
import proofs.«104169_j19911468384614_1_alg».proof.Proof.KernelFold
import proofs.«104169_j19911468384614_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at the four stacked layers of the argument arrays. -/
theorem algebraic : Cert.algebraic_KernelIdeal_ReferenceIdeal := by
  intro m ρ m' ρ' _ hagree
  refine ⟨fun c => GraphConv.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v164_eq, Cert.ReferenceIdeal.Stages.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
